-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1x4096x1024 : Shape := ⟨4, ![4, 1, 4096, 1024]⟩
abbrev S256x1024 : Shape := ⟨2, ![256, 1024]⟩
abbrev S16x1024 : Shape := ⟨2, ![16, 1024]⟩
abbrev S1024 : Shape := ⟨1, ![1024]⟩
abbrev S_ : Shape := ⟨0, ![]⟩

class Facts : Prop where
  bcast_S_S4x1x4096x1024 : S_.BroadcastsInDim S4x1x4096x1024 (![] : Fin 0 → Fin S4x1x4096x1024.rank)
  reducesTo_S4x1x4096x1024_S_d0_1_2_3 : S4x1x4096x1024.ReducesTo [0, 1, 2, 3] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S16x1024 : S_.BroadcastsInDim S16x1024 (![] : Fin 0 → Fin S16x1024.rank)
  reducesTo_S16x1024_S_d0_1 : S16x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x1x4096x1024 .f32) (main_arg1 : FVec F S256x1024 .f32) (main_arg2 : FVec F S16x1024 .f32) (main_arg3 : FVec F S1024 .f32) (main_arg4 : FVec F S1024 .f32) : IVec S_ 1 :=
  let main_v0 : FVec F S4x1x4096x1024 .f32 := Host.absf main_arg0
  let main_cst : FVec F S_ .f32 := constant S_ .f32 0x7F800000#32
  let main_v1 : FVec F S4x1x4096x1024 .f32 := broadcastInDim S4x1x4096x1024 ![] bcast_S_S4x1x4096x1024 main_cst
  let main_v2 : IVec S4x1x4096x1024 1 := cmpf .olt main_v0 main_v1
  let main_c : IVec S_ 1 := constantI S_ 1 1#1
  let main_v3 : IVec S_ 1 := (fun x v => Host.reduce IntOp.andi x v reducesTo_S4x1x4096x1024_S_d0_1_2_3 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  let main_v9 : FVec F S16x1024 .f32 := Host.absf main_arg2
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_c_3 : IVec S_ 1 := constantI S_ 1 1#1
  let main_v12 : IVec S_ 1 := (fun x v => Host.reduce IntOp.andi x v reducesTo_S16x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Kernel.lean ====
abbrev S4x1x4096x1024 : Shape := ⟨4, ![4, 1, 4096, 1024]⟩
abbrev S256x1024 : Shape := ⟨2, ![256, 1024]⟩
abbrev S16x1024 : Shape := ⟨2, ![16, 1024]⟩
abbrev S1024 : Shape := ⟨1, ![1024]⟩
abbrev S4x256x16x1024 : Shape := ⟨4, ![4, 256, 16, 1024]⟩
abbrev S1x1024 : Shape := ⟨2, ![1, 1024]⟩
abbrev S32x1024 : Shape := ⟨2, ![32, 1024]⟩
abbrev S4x32x16x1024 : Shape := ⟨4, ![4, 32, 16, 1024]⟩
abbrev S32 : Shape := ⟨1, ![32]⟩
abbrev S32x1 : Shape := ⟨2, ![32, 1]⟩
abbrev S16 : Shape := ⟨1, ![16]⟩
abbrev S32x16 : Shape := ⟨2, ![32, 16]⟩
abbrev S1x16 : Shape := ⟨2, ![1, 16]⟩
abbrev S32x16x1 : Shape := ⟨3, ![32, 16, 1]⟩
abbrev S32x1x1024 : Shape := ⟨3, ![32, 1, 1024]⟩
abbrev S1x16x1024 : Shape := ⟨3, ![1, 16, 1024]⟩
abbrev S32x16x1024 : Shape := ⟨3, ![32, 16, 1024]⟩
abbrev S1x1x1024 : Shape := ⟨3, ![1, 1, 1024]⟩
abbrev S1x32x16x1024 : Shape := ⟨4, ![1, 32, 16, 1024]⟩

abbrev nBuf : Space → Nat
  | .hbm => 10
  | .vmem => 9
  | .smem => 0
  | _ => 0

abbrev bufTy : (tb : Table) → Fin (tcTables nBuf tb) → BufTy
  | .hbm, ⟨0, _⟩ => ⟨S4x1x4096x1024, .f32⟩
  | .hbm, ⟨1, _⟩ => ⟨S256x1024, .f32⟩
  | .hbm, ⟨2, _⟩ => ⟨S16x1024, .f32⟩
  | .hbm, ⟨3, _⟩ => ⟨S1024, .f32⟩
  | .hbm, ⟨4, _⟩ => ⟨S1024, .f32⟩
  | .hbm, ⟨5, _⟩ => ⟨S4x256x16x1024, .f32⟩
  | .hbm, ⟨6, _⟩ => ⟨S1x1024, .f32⟩
  | .hbm, ⟨7, _⟩ => ⟨S1x1024, .f32⟩
  | .hbm, ⟨8, _⟩ => ⟨S4x256x16x1024, .f32⟩
  | .hbm, ⟨9, _⟩ => ⟨S4x1x4096x1024, .f32⟩
  | .local _ .vmem, ⟨0, _⟩ => ⟨S32x1024, .f32⟩
  | .local _ .vmem, ⟨1, _⟩ => ⟨S32x1024, .f32⟩
  | .local _ .vmem, ⟨2, _⟩ => ⟨S16x1024, .f32⟩
  | .local _ .vmem, ⟨3, _⟩ => ⟨S1x1024, .f32⟩
  | .local _ .vmem, ⟨4, _⟩ => ⟨S1x1024, .f32⟩
  | .local _ .vmem, ⟨5, _⟩ => ⟨S4x32x16x1024, .f32⟩
  | .local _ .vmem, ⟨6, _⟩ => ⟨S4x32x16x1024, .f32⟩
  | .local _ .vmem, ⟨7, _⟩ => ⟨S4x32x16x1024, .f32⟩
  | .local _ .vmem, ⟨8, _⟩ => ⟨S4x32x16x1024, .f32⟩
  | _, _ => ⟨S4x1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x32x16x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x32x16x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x1x4096x1024_S4x256x16x1024 : S4x1x4096x1024.ShapeCasts S4x256x16x1024
  shapeCasts_S1024_S1x1024 : S1024.ShapeCasts S1x1024
  inb_S32x1024_S32x1024_0_0 : ∀ a, (![0, 0] : Fin 2 → Nat) a + S32x1024.size a ≤ S32x1024.size a
  h_S32x1024 : 0 < S32x1024.numel
  inb_S16x1024_S16x1024_0_0 : ∀ a, (![0, 0] : Fin 2 → Nat) a + S16x1024.size a ≤ S16x1024.size a
  h_S16x1024 : 0 < S16x1024.numel
  reduces_S32x1024_S32 : S32x1024.Reduces [1] S32
  shapeCasts_S32_S32x1 : S32.ShapeCasts S32x1
  reduces_S16x1024_S16 : S16x1024.Reduces [1] S16
  shapeCasts_S16_S1x16 : S16.ShapeCasts S1x16
  broadcasts_S32x1_S32x16 : S32x1.Broadcasts S32x16
  broadcasts_S1x16_S32x16 : S1x16.Broadcasts S32x16
  shapeCasts_S32x16_S32x16x1 : S32x16.ShapeCasts S32x16x1
  shapeCasts_S32x1024_S32x1x1024 : S32x1024.ShapeCasts S32x1x1024
  shapeCasts_S16x1024_S1x16x1024 : S16x1024.ShapeCasts S1x16x1024
  broadcasts_S32x1x1024_S32x16x1024 : S32x1x1024.Broadcasts S32x16x1024
  broadcasts_S1x16x1024_S32x16x1024 : S1x16x1024.Broadcasts S32x16x1024
  broadcasts_S32x16x1_S32x16x1024 : S32x16x1.Broadcasts S32x16x1024
  inb_S1x1024_S1x1024_0_0 : ∀ a, (![0, 0] : Fin 2 → Nat) a + S1x1024.size a ≤ S1x1024.size a
  h_S1x1024 : 0 < S1x1024.numel
  shapeCasts_S1x1024_S1024 : S1x1024.ShapeCasts S1024
  shapeCasts_S1024_S1x1x1024 : S1024.ShapeCasts S1x1x1024
  broadcasts_S1x1x1024_S32x16x1024 : S1x1x1024.Broadcasts S32x16x1024
  inb_S4x32x16x1024_S4x32x16x1024_0_0_0_0 : ∀ a, (![0, 0, 0, 0] : Fin 4 → Nat) a + S4x32x16x1024.size a ≤ S4x32x16x1024.size a
  h_S4x32x16x1024 : 0 < S4x32x16x1024.numel
  shapeCasts_S4x32x16x1024_S4x32x16x1024 : S4x32x16x1024.ShapeCasts S4x32x16x1024
  shapeCasts_S32x16x1024_S1x32x16x1024 : S32x16x1024.ShapeCasts S1x32x16x1024
  broadcasts_S1x32x16x1024_S4x32x16x1024 : S1x32x16x1024.Broadcasts S4x32x16x1024
  shapeCasts_S4x256x16x1024_S4x1x4096x1024 : S4x256x16x1024.ShapeCasts S4x1x4096x1024
  dot_S32x1024_S16x1024_S32x16_1_1_0_0_n_n_wf : DotDims.WF S32x1024 S16x1024 S32x16 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S256x1024.size a
  hwx0_0 : ∀ i : grid0.Coords, EltTy.bits .f32 = 32 ∨ (Rect.block (s := S256x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x32x16x1024.size a ≤ S4x256x16x1024.size a
  hwx0_4 : ∀ i : grid0.Coords, EltTy.bits .f32 = 32 ∨ (Rect.block (s := S4x256x16x1024) S4x32x16x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x32x16x1024.size a ≤ S4x256x16x1024.size a
  hwx0_5 : ∀ i : grid0.Coords, EltTy.bits .f32 = 32 ∨ (Rect.block (s := S4x256x16x1024) S4x32x16x1024.size (cc0_transform_5 i) (hinb0_5 i)).WholeWords (EltTy.packing .f32)

variable [Facts₀]

def dot_S32x1024_S16x1024_S32x16_1_1_0_0_n_n : DotDims S32x1024 S16x1024 S32x16 where
  lhsContracting := [1]
  rhsContracting := [1]
  lhsNonContracting := [0]
  rhsNonContracting := [0]
  lhsBatch := []
  rhsBatch := []
  wf := dot_S32x1024_S16x1024_S32x16_1_1_0_0_n_n_wf

abbrev win0_0 : Pipeline.Window sig grid0 :=
  Pipeline.Window.ofSpec (Memref.whole main_arg1) S32x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x32x16x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S4x32x16x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x1x4096x1024 : Shape := ⟨4, ![4, 1, 4096, 1024]⟩
abbrev S256x1024 : Shape := ⟨2, ![256, 1024]⟩
abbrev S16x1024 : Shape := ⟨2, ![16, 1024]⟩
abbrev S1024 : Shape := ⟨1, ![1024]⟩
abbrev S256x16 : Shape := ⟨2, ![256, 16]⟩
abbrev S1x1x4096 : Shape := ⟨3, ![1, 1, 4096]⟩
abbrev S256 : Shape := ⟨1, ![256]⟩
abbrev S1x1x4096x1 : Shape := ⟨4, ![1, 1, 4096, 1]⟩
abbrev S1x1x1x256 : Shape := ⟨4, ![1, 1, 1, 256]⟩
abbrev S1x1x4096x256 : Shape := ⟨4, ![1, 1, 4096, 256]⟩
abbrev S1x1x4096x1024 : Shape := ⟨4, ![1, 1, 4096, 1024]⟩
abbrev S16 : Shape := ⟨1, ![16]⟩
abbrev S1x1x1x16 : Shape := ⟨4, ![1, 1, 1, 16]⟩
abbrev S1x1x4096x16 : Shape := ⟨4, ![1, 1, 4096, 16]⟩
abbrev S_ : Shape := ⟨0, ![]⟩
abbrev S1x1x1x1024 : Shape := ⟨4, ![1, 1, 1, 1024]⟩

abbrev nBuf : Space → Nat
  | .hbm => 72
  | .vmem => 0
  | .smem => 0
  | _ => 0

abbrev bufTy : (tb : Table) → Fin (tcTables nBuf tb) → BufTy
  | .hbm, ⟨0, _⟩ => ⟨S4x1x4096x1024, .f32⟩
  | .hbm, ⟨1, _⟩ => ⟨S256x1024, .f32⟩
  | .hbm, ⟨2, _⟩ => ⟨S16x1024, .f32⟩
  | .hbm, ⟨3, _⟩ => ⟨S1024, .f32⟩
  | .hbm, ⟨4, _⟩ => ⟨S1024, .f32⟩
  | .hbm, ⟨5, _⟩ => ⟨S256x16, .i32⟩
  | .hbm, ⟨6, _⟩ => ⟨S256x16, .i32⟩
  | .hbm, ⟨7, _⟩ => ⟨S1x1x4096, .i32⟩
  | .hbm, ⟨8, _⟩ => ⟨S1x1x4096, .i32⟩
  | .hbm, ⟨9, _⟩ => ⟨S256, .i32⟩
  | .hbm, ⟨10, _⟩ => ⟨S1x1x4096x1, .i32⟩
  | .hbm, ⟨11, _⟩ => ⟨S1x1x1x256, .i32⟩
  | .hbm, ⟨12, _⟩ => ⟨S1x1x4096x256, .i32⟩
  | .hbm, ⟨13, _⟩ => ⟨S1x1x4096x256, .i32⟩
  | .hbm, ⟨14, _⟩ => ⟨S1x1x4096x256, .i1⟩
  | .hbm, ⟨15, _⟩ => ⟨S1x1x4096x256, .f32⟩
  | .hbm, ⟨16, _⟩ => ⟨S1x1x4096x1024, .f32⟩
  | .hbm, ⟨17, _⟩ => ⟨S16, .i32⟩
  | .hbm, ⟨18, _⟩ => ⟨S1x1x4096x1, .i32⟩
  | .hbm, ⟨19, _⟩ => ⟨S1x1x1x16, .i32⟩
  | .hbm, ⟨20, _⟩ => ⟨S1x1x4096x16, .i32⟩
  | .hbm, ⟨21, _⟩ => ⟨S1x1x4096x16, .i32⟩
  | .hbm, ⟨22, _⟩ => ⟨S1x1x4096x16, .i1⟩
  | .hbm, ⟨23, _⟩ => ⟨S1x1x4096x16, .f32⟩
  | .hbm, ⟨24, _⟩ => ⟨S1x1x4096x1024, .f32⟩
  | .hbm, ⟨25, _⟩ => ⟨S1x1x4096x1024, .f32⟩
  | .hbm, ⟨26, _⟩ => ⟨S_, .f32⟩
  | .hbm, ⟨27, _⟩ => ⟨S1x1x4096, .f32⟩
  | .hbm, ⟨28, _⟩ => ⟨S1x1x4096x1, .f32⟩
  | .hbm, ⟨29, _⟩ => ⟨S_, .f32⟩
  | .hbm, ⟨30, _⟩ => ⟨S1x1x4096x1, .f32⟩
  | .hbm, ⟨31, _⟩ => ⟨S1x1x4096x1, .f32⟩
  | .hbm, ⟨32, _⟩ => ⟨S_, .i32⟩
  | .hbm, ⟨33, _⟩ => ⟨S_, .f32⟩
  | .hbm, ⟨34, _⟩ => ⟨S1x1x4096, .f32⟩
  | .hbm, ⟨35, _⟩ => ⟨S1x1x4096x1, .f32⟩
  | .hbm, ⟨36, _⟩ => ⟨S_, .f32⟩
  | .hbm, ⟨37, _⟩ => ⟨S1x1x4096x1, .f32⟩
  | .hbm, ⟨38, _⟩ => ⟨S1x1x4096x1, .f32⟩
  | .hbm, ⟨39, _⟩ => ⟨S1x1x4096x1024, .f32⟩
  | .hbm, ⟨40, _⟩ => ⟨S1x1x4096x1024, .f32⟩
  | .hbm, ⟨41, _⟩ => ⟨S1x1x4096x1024, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1x1x4096, .f32⟩
  | .hbm, ⟨47, _⟩ => ⟨S1x1x4096x1, .f32⟩
  | .hbm, ⟨48, _⟩ => ⟨S1x1x4096x1, .f32⟩
  | .hbm, ⟨49, _⟩ => ⟨S1x1x4096x1, .f32⟩
  | .hbm, ⟨50, _⟩ => ⟨S_, .f32⟩
  | .hbm, ⟨51, _⟩ => ⟨S_, .i1⟩
  | .hbm, ⟨52, _⟩ => ⟨S_, .f32⟩
  | .hbm, ⟨53, _⟩ => ⟨S_, .f32⟩
  | .hbm, ⟨54, _⟩ => ⟨S1x1x4096x1, .f32⟩
  | .hbm, ⟨55, _⟩ => ⟨S1x1x4096x1, .f32⟩
  | .hbm, ⟨56, _⟩ => ⟨S1x1x4096x1024, .f32⟩
  | .hbm, ⟨57, _⟩ => ⟨S1x1x4096x1024, .f32⟩
  | .hbm, ⟨58, _⟩ => ⟨S_, .f32⟩
  | .hbm, ⟨59, _⟩ => ⟨S1x1x4096x1, .f32⟩
  | .hbm, ⟨60, _⟩ => ⟨S1x1x4096x1, .f32⟩
  | .hbm, ⟨61, _⟩ => ⟨S1x1x4096x1, .f32⟩
  | .hbm, ⟨62, _⟩ => ⟨S1x1x4096x1024, .f32⟩
  | .hbm, ⟨63, _⟩ => ⟨S1x1x4096x1024, .f32⟩
  | .hbm, ⟨64, _⟩ => ⟨S1x1x1x1024, .f32⟩
  | .hbm, ⟨65, _⟩ => ⟨S1x1x4096x1024, .f32⟩
  | .hbm, ⟨66, _⟩ => ⟨S1x1x4096x1024, .f32⟩
  | .hbm, ⟨67, _⟩ => ⟨S1x1x1x1024, .f32⟩
  | .hbm, ⟨68, _⟩ => ⟨S1x1x4096x1024, .f32⟩
  | .hbm, ⟨69, _⟩ => ⟨S1x1x4096x1024, .f32⟩
  | .hbm, ⟨70, _⟩ => ⟨S4x1x4096x1024, .f32⟩
  | .hbm, ⟨71, _⟩ => ⟨S4x1x4096x1024, .f32⟩
  | _, _ => ⟨S4x1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst : Ref sig .tc := ⟨.hbm, 26, rfl⟩
abbrev main_v21 : Ref sig .tc := ⟨.hbm, 27, rfl⟩
abbrev main_v22 : Ref sig .tc := ⟨.hbm, 28, rfl⟩
abbrev main_cst_0 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_cst : Ref sig .tc := ⟨.hbm, 33, rfl⟩
abbrev main_call0_v0 : Ref sig .tc := ⟨.hbm, 34, rfl⟩
abbrev main_call0_v1 : Ref sig .tc := ⟨.hbm, 35, rfl⟩
abbrev main_call0_cst_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_v5 : Ref sig .tc := ⟨.hbm, 40, rfl⟩
abbrev main_call0_v6 : Ref sig .tc := ⟨.hbm, 41, rfl⟩
abbrev main_call0_v7 : Ref sig .tc := ⟨.hbm, 42, rfl⟩
abbrev main_call0_cst_1 : Ref sig .tc := ⟨.hbm, 43, rfl⟩
abbrev main_call0_v8 : Ref sig .tc := ⟨.hbm, 44, rfl⟩
abbrev main_call0_cst_2 : Ref sig .tc := ⟨.hbm, 45, rfl⟩
abbrev main_call0_v9 : Ref sig .tc := ⟨.hbm, 46, rfl⟩
abbrev main_call0_v10 : Ref sig .tc := ⟨.hbm, 47, rfl⟩
abbrev main_call0_v11 : Ref sig .tc := ⟨.hbm, 48, rfl⟩
abbrev main_call0_v12 : Ref sig .tc := ⟨.hbm, 49, rfl⟩
abbrev main_call0_cst_3 : Ref sig .tc := ⟨.hbm, 50, rfl⟩
abbrev main_call0_v13 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_cst_1 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩

abbrev nD : Nat := 1
abbrev τ : Topo := Topo.v7x

variable {F : FTy → Type} [FloatOps F]

class Facts₀ : Prop where
  shapeCasts_S256x16_S1x1x4096 : S256x16.ShapeCasts S1x1x4096
  bcast_S1x1x4096_S1x1x4096x1_0_1_2 : S1x1x4096.BroadcastsInDim S1x1x4096x1 (![0, 1, 2] : Fin 3 → Fin S1x1x4096x1.rank)
  bcast_S256_S1x1x1x256_3 : S256.BroadcastsInDim S1x1x1x256 (![3] : Fin 1 → Fin S1x1x1x256.rank)
  bcast_S1x1x4096x1_S1x1x4096x256_0_1_2_3 : S1x1x4096x1.BroadcastsInDim S1x1x4096x256 (![0, 1, 2, 3] : Fin 4 → Fin S1x1x4096x256.rank)
  bcast_S1x1x1x256_S1x1x4096x256_0_1_2_3 : S1x1x1x256.BroadcastsInDim S1x1x4096x256 (![0, 1, 2, 3] : Fin 4 → Fin S1x1x4096x256.rank)
  bcast_S16_S1x1x1x16_3 : S16.BroadcastsInDim S1x1x1x16 (![3] : Fin 1 → Fin S1x1x1x16.rank)
  bcast_S1x1x4096x1_S1x1x4096x16_0_1_2_3 : S1x1x4096x1.BroadcastsInDim S1x1x4096x16 (![0, 1, 2, 3] : Fin 4 → Fin S1x1x4096x16.rank)
  bcast_S1x1x1x16_S1x1x4096x16_0_1_2_3 : S1x1x1x16.BroadcastsInDim S1x1x4096x16 (![0, 1, 2, 3] : Fin 4 → Fin S1x1x4096x16.rank)
  reducesTo_S1x1x4096x1024_S1x1x4096_d3 : S1x1x4096x1024.ReducesTo [3] S1x1x4096
  h_S_ : 0 < S_.numel
  bcast_S_S1x1x4096x1 : S_.BroadcastsInDim S1x1x4096x1 (![] : Fin 0 → Fin S1x1x4096x1.rank)
  bcast_S1x1x4096x1_S1x1x4096x1024_0_1_2_3 : S1x1x4096x1.BroadcastsInDim S1x1x4096x1024 (![0, 1, 2, 3] : Fin 4 → Fin S1x1x4096x1024.rank)
  bcast_S1024_S1x1x1x1024_3 : S1024.BroadcastsInDim S1x1x1x1024 (![3] : Fin 1 → Fin S1x1x1x1024.rank)
  bcast_S1x1x1x1024_S1x1x4096x1024_0_1_2_3 : S1x1x1x1024.BroadcastsInDim S1x1x4096x1024 (![0, 1, 2, 3] : Fin 4 → Fin S1x1x4096x1024.rank)
  bcast_S1x1x4096x1024_S4x1x4096x1024_0_1_2_3 : S1x1x4096x1024.BroadcastsInDim S4x1x4096x1024 (![0, 1, 2, 3] : Fin 4 → Fin S4x1x4096x1024.rank)
  dot_S1x1x4096x256_S256x1024_S1x1x4096x1024_3_0_012_1_n_n_wf : DotDims.WF S1x1x4096x256 S256x1024 S1x1x4096x1024 [3] [0] [0, 1, 2] [1] [] []
  dot_S1x1x4096x16_S16x1024_S1x1x4096x1024_3_0_012_1_n_n_wf : DotDims.WF S1x1x4096x16 S16x1024 S1x1x4096x1024 [3] [0] [0, 1, 2] [1] [] []

variable [Facts₀]

def dot_S1x1x4096x256_S256x1024_S1x1x4096x1024_3_0_012_1_n_n : DotDims S1x1x4096x256 S256x1024 S1x1x4096x1024 where
  lhsContracting := [3]
  rhsContracting := [0]
  lhsNonContracting := [0, 1, 2]
  rhsNonContracting := [1]
  lhsBatch := []
  rhsBatch := []
  wf := dot_S1x1x4096x256_S256x1024_S1x1x4096x1024_3_0_012_1_n_n_wf
def dot_S1x1x4096x16_S16x1024_S1x1x4096x1024_3_0_012_1_n_n : DotDims S1x1x4096x16 S16x1024 S1x1x4096x1024 where
  lhsContracting := [3]
  rhsContracting := [0]
  lhsNonContracting := [0, 1, 2]
  rhsNonContracting := [1]
  lhsBatch := []
  rhsBatch := []
  wf := dot_S1x1x4096x16_S16x1024_S1x1x4096x1024_3_0_012_1_n_n_wf

class Facts : Prop extends Facts₀ where

variable [Facts]
-- ==== Proof.Spec.lean ====
/-
  The specification of the position-encoding kernel, stated over plain index functions and free of both programs.

  Row `r` of the position table is `T (r / 16) + S (r % 16)` (a temporal row plus a spectral row, 1024 lanes each); the
  result adds to the input, lane by lane, the layer norm of that row times the scale plus the bias.  Two spellings of the
  normalised row are given: the textbook one (mean, then the mean of the squared deviations, then
  `(p - mean) * rsqrt (var + eps)`) and the separated one (the sums of `t`, `s`, `t²`, `s²` and of the products `t·s`
  give the mean `mu` and the second moment `e2`; the row is `(t + s) * r - mu * r` with `r = rsqrt (e2 - mu² + eps)`).
-/
import Idealize.ShloMosaic.PureOps.Ideal
import Idealize.ShloMosaic.Lib.ValueIdx

noncomputable section

namespace Cert.PosNorm

open Idealize.ShloMosaic Idealize.ShloMosaic.ValueIdx

/-- The f32 words of the two programs: 1024, 1/1024, 2 and the epsilon. -/
abbrev wN : EReal := Ideal.ofBits .f32 0x44800000#32
abbrev wInvN : EReal := Ideal.ofBits .f32 0x3A800000#32
abbrev wTwo : EReal := Ideal.ofBits .f32 0x40000000#32
abbrev wEps : EReal := Ideal.ofBits .f32 0x358637BD#32

/-! ## The textbook layer norm of a row -/

def refMean (p : Fin 1024 → EReal) : EReal := Ideal.div (∑ k, p k) wN
def refVar (p : Fin 1024 → EReal) : EReal := Ideal.div (∑ k, (p k - refMean p) * (p k - refMean p)) wN
def refRow (p : Fin 1024 → EReal) (h : Fin 1024) : EReal := (p h - refMean p) * Ideal.rsqrt (refVar p + wEps)

/-! ## The separated form: the row is `t + s`, its moments come from the moments of `t`, of `s` and from `t · s` -/

def kerMu (t s : Fin 1024 → EReal) : EReal := ((∑ k, t k) + (∑ k, s k)) * wInvN
def kerE2 (t s : Fin 1024 → EReal) : EReal := (((∑ k, t k * t k) + (∑ k, s k * s k)) + wTwo * (∑ k, t k * s k)) * wInvN
def kerR (t s : Fin 1024 → EReal) : EReal := Ideal.rsqrt ((kerE2 t s - kerMu t s * kerMu t s) + wEps)
def kerRow (t s : Fin 1024 → EReal) (h : Fin 1024) : EReal := (t h + s h) * kerR t s - kerMu t s * kerR t s

/-! ## The arrays -/

abbrev SX : Shape := ⟨4, ![4, 1, 4096, 1024]⟩
abbrev ST : Shape := ⟨2, ![256, 1024]⟩
abbrev SS : Shape := ⟨2, ![16, 1024]⟩
abbrev SV : Shape := ⟨1, ![1024]⟩

/-- The temporal row of token `r`: row `r / 16` of the temporal table. -/
def tRow (T : ST.Idx → EReal) (r : Fin 4096) : Fin 1024 → EReal := fun k => T (ix2 (⟨r.val / 16, by omega⟩ : Fin 256) k)
/-- The spectral row of token `r`: row `r % 16` of the spectral table. -/
def sRow (S : SS.Idx → EReal) (r : Fin 4096) : Fin 1024 → EReal := fun k => S (ix2 (⟨r.val % 16, by omega⟩ : Fin 16) k)

/-- The result, textbook form. -/
def G (x : SX.Idx → EReal) (T : ST.Idx → EReal) (S : SS.Idx → EReal) (g b : SV.Idx → EReal) : SX.Idx → EReal := fun i =>
  x i + (refRow (fun k => tRow T (i 2) k + sRow S (i 2) k) (i 3) * g (ix1 (i 3)) + b (ix1 (i 3)))

/-- The result, separated form. -/
def Gk (x : SX.Idx → EReal) (T : ST.Idx → EReal) (S : SS.Idx → EReal) (g b : SV.Idx → EReal) : SX.Idx → EReal := fun i =>
  x i + (kerRow (tRow T (i 2)) (sRow S (i 2)) (i 3) * g (ix1 (i 3)) + b (ix1 (i 3)))

theorem G_apply (x : SX.Idx → EReal) (T : ST.Idx → EReal) (S : SS.Idx → EReal) (g b : SV.Idx → EReal)
    (a : Fin 4) (u : Fin 1) (r : Fin 4096) (h : Fin 1024) :
    G x T S g b (ix4 a u r h)
      = x (ix4 a u r h) + (refRow (fun k => tRow T r k + sRow S r k) h * g (ix1 h) + b (ix1 h)) := rfl

theorem Gk_apply (x : SX.Idx → EReal) (T : ST.Idx → EReal) (S : SS.Idx → EReal) (g b : SV.Idx → EReal)
    (a : Fin 4) (u : Fin 1) (r : Fin 4096) (h : Fin 1024) :
    Gk x T S g b (ix4 a u r h)
      = x (ix4 a u r h) + (kerRow (tRow T r) (sRow S r) h * g (ix1 h) + b (ix1 h)) := rfl

end Cert.PosNorm

end
-- ==== Proof.LibKeepdims.lean ====
/-
  Two layout operations of a kept-dimension row sum, read at an index: a vector [a] recast as a column [a, 1], and a
  column [a, 1] broadcast over b columns.  (The row forms [a] -> [1, a] and [1, b] -> [a, b] and the matrix transpose
  are library lemmas; these are their column counterparts, proved the same way: a cast keeps the row-major position,
  a broadcast reads coordinate 0 on a unit axis.)
-/
import Idealize.ShloMosaic.Lib.Pipeline.Value
import Idealize.ShloMosaic.Lib.ValueIdx
import Idealize.ShloMosaic.Lib.ValueLayout

namespace Cert.LibKeepdims

open Idealize.ShloMosaic Idealize.ShloMosaic.ValueIdx

variable {α : Type}

/-- An [a] array cast to a column [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«100163_g22428319220377_cont_9to1_50_21_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.LibRowReduce.lean ====
/-
  Reductions along the rows of an [a, b] array, read at a row, on the extended reals.

  A lane sum from the zero word is the sum of the row's entries; a lane maximum from the -∞ word is their supremum;
  and a vector [a] kept as a column [a, 1] and spread over b columns reads, at (p, q), the vector at p.  The source
  index over row p with column k inserted is (p, k).
-/
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout
import proofs.«100163_g22428319220377_cont_9to1_50_21_alg».proof.Proof.LibKeepdims
import proofs.«100163_g22428319220377_cont_9to1_50_21_alg».proof.Proof.LibExtremeReduce

noncomputable section

namespace Cert.LibRowReduce

open Idealize.ShloMosaic Idealize.ShloMosaic.ValueIdx

variable {a b : Nat}

/-- Over row p of an [a, b] array, the index with column k inserted is (p, k). -/
theorem lift_row (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- A lane sum along the rows, from the zero word, at row p: the sum of the row. -/
theorem rowSum_apply (src : FVec Ideal ⟨2, ![a, b]⟩ .f32) (h : (⟨2, ![a, b]⟩ : Shape).Reduces [1] ⟨1, ![a]⟩) (p : Fin a) :
    multiReduction .add [1] ⟨1, ![a]⟩ src 0x00000000#32 h (.inl rfl) rfl (ix1 p) = ∑ q : Fin b, src (ix2 p q) :=
  (Ideal.multiReduction_add_single src 0x00000000#32 h (.inl rfl) rfl (ix1 p)).trans
    (Finset.sum_congr rfl fun k _ => congrArg src (lift_row h p k))

/-- A lane maximum along the rows, from the -∞ word, at row p: the supremum of the row. -/
theorem rowMax_apply (src : FVec Ideal ⟨2, ![a, b]⟩ .f32) (h : (⟨2, ![a, b]⟩ : Shape).Reduces [1] ⟨1, ![a]⟩) (p : Fin a) :
    multiReduction .maximumf [1] ⟨1, ![a]⟩ src 0xFF800000#32 h (.inl rfl) rfl (ix1 p) = ⨆ q : Fin b, src (ix2 p q) :=
  (ExtremeReduce.multiReduction_max_single src h (.inl rfl) rfl (ix1 p)).trans
    (iSup_congr fun k => congrArg src (lift_row h p k))

/-- A vector [a] kept as a column [a, 1] and spread over b columns reads, at (p, q), the vector at p. -/
theorem column_apply {α : Type} (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (q : Fin b) :
    broadcastTo ⟨2, ![a, b]⟩ (shapeCast ⟨2, ![a, 1]⟩ v h1) h2 (ix2 p q) = v (ix1 p) :=
  (LibKeepdims.broadcastTo_a1_ab_apply _ h2 p q).trans (LibKeepdims.shapeCast_a_a1_apply v h1 p 0)

end Cert.LibRowReduce

end
-- ==== Proof.LibRowDots.lean ====
/-
  Products of rows against rows, read at an index, on the extended reals.

  A contraction whose two operands are both contracted on their LAST axis — [M,K] against [N,K] (a `tpu.matmul`
  into the zero accumulator, or the host's `dot_general`), [B,M,K] against a shared [N,K], and the batched
  [B,M,K] against [B,N,K] — is, at the output index (p, f) or (g, p, f), the sum over d of the left row's entry d
  times the right row's entry d. Each statement holds for any dimension record equal to the literal one.
-/
import Idealize.ShloMosaic.PureOps.Ideal.Laws
import Idealize.ShloMosaic.Lib.ValueIdx

noncomputable section

namespace Cert.LibRowDots

open Idealize.ShloMosaic Idealize.ShloMosaic.ValueIdx

/-! ## [M,K] against [N,K] -/

section Rows

variable {M K N : Nat}
variable (wf : DotDims.WF ⟨2, ![M, K]⟩ ⟨2, ![N, K]⟩ ⟨2, ![M, N]⟩ [1] [1] [0] [0] [] [])

/-- The literal record: both operands contracted on axis 1, no batch axis. -/
abbrev rows : DotDims ⟨2, ![M, K]⟩ ⟨2, ![N, K]⟩ ⟨2, ![M, N]⟩ := ⟨[1], [1], [0], [0], [], [], wf⟩

theorem rows_lhs0 (i : (⟨2, ![M, N]⟩ : Shape).Idx) (q : (rows wf).contr.Idx) : ((rows wf).lhsIdx i q 0).val = (i 0).val := by
  unfold DotDims.lhsIdx
  rw [dif_neg (show ¬(0 : Fin 2) ∈ (rows wf).lhsBatch from (by decide : ¬(0 : Fin 2) ∈ ([] : List (Fin 2)))), dif_pos (show (0 : Fin 2) ∈ (rows wf).lhsNonContracting from (by decide : (0 : Fin 2) ∈ ([0] : List (Fin 2))))]
  rfl

theorem rows_lhs1 (i : (⟨2, ![M, N]⟩ : Shape).Idx) (q : (rows wf).contr.Idx) : ((rows wf).lhsIdx i q 1).val = (q ⟨0, Nat.one_pos⟩).val :=
  (rows wf).lhsIdx_val_of_single rfl i q

theorem rows_rhs0 (i : (⟨2, ![M, N]⟩ : Shape).Idx) (q : (rows wf).contr.Idx) : ((rows wf).rhsIdx i q 0).val = (i 1).val := by
  unfold DotDims.rhsIdx
  rw [dif_neg (show ¬(0 : Fin 2) ∈ (rows wf).rhsBatch from (by decide : ¬(0 : Fin 2) ∈ ([] : List (Fin 2)))), dif_pos (show (0 : Fin 2) ∈ (rows wf).rhsNonContracting from (by decide : (0 : Fin 2) ∈ ([0] : List (Fin 2))))]
  rfl

theorem rows_rhs1 (i : (⟨2, ![M, N]⟩ : Shape).Idx) (q : (rows wf).contr.Idx) : ((rows wf).rhsIdx i q 1).val = (q ⟨0, Nat.one_pos⟩).val :=
  (rows wf).rhsIdx_val_of_single rfl i q

/-- The sum over the contraction index is the sum over d of row p of the left times row f of the right. -/
theorem rows_sum {φ₁ φ₂ : FTy} (a : FVec Ideal ⟨2, ![M, K]⟩ φ₁) (w : FVec Ideal ⟨2, ![N, K]⟩ φ₂) (p : Fin M) (f : Fin N) :
    ∑ k : (rows wf).contr.Idx, a ((rows wf).lhsIdx (ix2 p f) k) * w ((rows wf).rhsIdx (ix2 p f) k)
      = ∑ d : Fin K, a (ix2 p d) * w (ix2 f d) := by
  rw [← Equiv.sum_comp (contrEquiv1 (rows wf) K rfl rfl).symm]
  refine Finset.sum_congr rfl fun k _ => ?_
  have hk := contrEquiv1_symm_val (rows wf) K rfl rfl k
  have el : (rows wf).lhsIdx (ix2 p f) ((contrEquiv1 (rows wf) K rfl rfl).symm k) = ix2 p k := funext fun x => Fin.ext (by
    match x with
    | ⟨0, _⟩ => exact rows_lhs0 wf _ _
    | ⟨1, _⟩ => exact (rows_lhs1 wf _ _).trans hk)
  have er : (rows wf).rhsIdx (ix2 p f) ((contrEquiv1 (rows wf) K rfl rfl).symm k) = ix2 f k := funext fun x => Fin.ext (by
    match x with
    | ⟨0, _⟩ => exact rows_rhs0 wf _ _
    | ⟨1, _⟩ => exact (rows_rhs1 wf _ _).trans hk)
  rw [el, er]

/-- A `tpu.matmul` of rows against rows into the zero accumulator, at (p, f). -/
theorem matmul_rows {φ₁ φ₂ : FTy} (D : DotDims ⟨2, ![M, K]⟩ ⟨2, ![N, K]⟩ ⟨2, ![M, N]⟩) (hD : D = rows wf)
    (prec : Option ContractPrecision) (a : FVec Ideal ⟨2, ![M, K]⟩ φ₁) (w : FVec Ideal ⟨2, ![N, K]⟩ φ₂) (p : Fin M) (f : Fin N) :
    matmul D prec a w (constant (F := Ideal) ⟨2, ![M, N]⟩ .f32 0x00000000#32) (ix2 p f) = ∑ d : Fin K, a (ix2 p d) * w (ix2 f d) := by
  subst hD
  exact (Ideal.matmul_constant_zero_apply _ prec a w (ix2 p f)).trans (rows_sum wf a w p f)

end Rows

/-! ## [B,M,K] against a shared [N,K] -/

section Shared

variable {B M K N : Nat}
variable (wf : DotDims.WF ⟨3, ![B, M, K]⟩ ⟨2, ![N, K]⟩ ⟨3, ![B, M, N]⟩ [2] [1] [0, 1] [0] [] [])

/-- The literal record: the left contracted on axis 2, the right on axis 1, no batch axis. -/
abbrev shared : DotDims ⟨3, ![B, M, K]⟩ ⟨2, ![N, K]⟩ ⟨3, ![B, M, N]⟩ := ⟨[2], [1], [0, 1], [0], [], [], wf⟩

theorem shared_lhs0 (i : (⟨3, ![B, M, N]⟩ : Shape).Idx) (q : (shared wf).contr.Idx) : ((shared wf).lhsIdx i q 0).val = (i 0).val := by
  unfold DotDims.lhsIdx
  rw [dif_neg (show ¬(0 : Fin 3) ∈ (shared wf).lhsBatch from (by decide : ¬(0 : Fin 3) ∈ ([] : List (Fin 3)))), dif_pos (show (0 : Fin 3) ∈ (shared wf).lhsNonContracting from (by decide : (0 : Fin 3) ∈ ([0, 1] : List (Fin 3))))]
  rfl

theorem shared_lhs1 (i : (⟨3, ![B, M, N]⟩ : Shape).Idx) (q : (shared wf).contr.Idx) : ((shared wf).lhsIdx i q 1).val = (i 1).val := by
  unfold DotDims.lhsIdx
  rw [dif_neg (show ¬(1 : Fin 3) ∈ (shared wf).lhsBatch from (by decide : ¬(1 : Fin 3) ∈ ([] : List (Fin 3)))), dif_pos (show (1 : Fin 3) ∈ (shared wf).lhsNonContracting from (by decide : (1 : Fin 3) ∈ ([0, 1] : List (Fin 3))))]
  rfl

theorem shared_lhs2 (i : (⟨3, ![B, M, N]⟩ : Shape).Idx) (q : (shared wf).contr.Idx) : ((shared wf).lhsIdx i q 2).val = (q ⟨0, Nat.one_pos⟩).val :=
  (shared wf).lhsIdx_val_of_single rfl i q

theorem shared_rhs0 (i : (⟨3, ![B, M, N]⟩ : Shape).Idx) (q : (shared wf).contr.Idx) : ((shared wf).rhsIdx i q 0).val = (i 2).val := by
  unfold DotDims.rhsIdx
  rw [dif_neg (show ¬(0 : Fin 2) ∈ (shared wf).rhsBatch from (by decide : ¬(0 : Fin 2) ∈ ([] : List (Fin 2)))), dif_pos (show (0 : Fin 2) ∈ (shared wf).rhsNonContracting from (by decide : (0 : Fin 2) ∈ ([0] : List (Fin 2))))]
  rfl

theorem shared_rhs1 (i : (⟨3, ![B, M, N]⟩ : Shape).Idx) (q : (shared wf).contr.Idx) : ((shared wf).rhsIdx i q 1).val = (q ⟨0, Nat.one_pos⟩).val :=
  (shared wf).rhsIdx_val_of_single rfl i q

/-- The host's `dot_general` of every chunk's rows against one shared table's rows, at (g, p, f). -/
theorem dot_shared {φ₁ φ₂ : FTy} (D : DotDims ⟨3, ![B, M, K]⟩ ⟨2, ![N, K]⟩ ⟨3, ![B, M, N]⟩) (hD : D = shared wf)
    (prec : Option ContractPrecision) (a : FVec Ideal ⟨3, ![B, M, K]⟩ φ₁) (w : FVec Ideal ⟨2, ![N, K]⟩ φ₂) (g : Fin B) (p : Fin M) (f : Fin N) :
    Host.dotGeneral D prec a w (ix3 g p f) = ∑ d : Fin K, a (ix3 g p d) * w (ix2 f d) := by
  subst hD
  refine (Ideal.dotGeneral_apply _ prec .single a w (ix3 g p f)).trans ?_
  rw [← Equiv.sum_comp (contrEquiv1 (shared wf) K rfl rfl).symm]
  refine Finset.sum_congr rfl fun k _ => ?_
  have hk := contrEquiv1_symm_val (shared wf) K rfl rfl k
  have el : (shared wf).lhsIdx (ix3 g p f) ((contrEquiv1 (shared wf) K rfl rfl).symm k) = ix3 g p k := funext fun x => Fin.ext (by
    match x with
    | ⟨0, _⟩ => exact shared_lhs0 wf _ _
    | ⟨1, _⟩ => exact shared_lhs1 wf _ _
    | ⟨2, _⟩ => exact (shared_lhs2 wf _ _).trans hk)
  have er : (shared wf).rhsIdx (ix3 g p f) ((contrEquiv1 (shared wf) K rfl rfl).symm k) = ix2 f k := funext fun x => Fin.ext (by
    match x with
    | ⟨0, _⟩ => exact shared_rhs0 wf _ _
    | ⟨1, _⟩ => exact (shared_rhs1 wf _ _).trans hk)
  rw [el, er]

end Shared

/-! ## [B,M,K] against [B,N,K], chunk by chunk -/

section Batched

variable {B M K N : Nat}
variable (wf : DotDims.WF ⟨3, ![B, M, K]⟩ ⟨3, ![B, N, K]⟩ ⟨3, ![B, M, N]⟩ [2] [2] [1] [1] [0] [0])

/-- The literal record: axis 0 the batch axis of both, both contracted on axis 2. -/
abbrev batched : DotDims ⟨3, ![B, M, K]⟩ ⟨3, ![B, N, K]⟩ ⟨3, ![B, M, N]⟩ := ⟨[2], [2], [1], [1], [0], [0], wf⟩

theorem batched_lhs0 (i : (⟨3, ![B, M, N]⟩ : Shape).Idx) (q : (batched wf).contr.Idx) : ((batched wf).lhsIdx i q 0).val = (i 0).val := by
  unfold DotDims.lhsIdx
  rw [dif_pos (show (0 : Fin 3) ∈ (batched wf).lhsBatch from (by decide : (0 : Fin 3) ∈ ([0] : List (Fin 3))))]
  rfl

theorem batched_lhs1 (i : (⟨3, ![B, M, N]⟩ : Shape).Idx) (q : (batched wf).contr.Idx) : ((batched wf).lhsIdx i q 1).val = (i 1).val := by
  unfold DotDims.lhsIdx
  rw [dif_neg (show ¬(1 : Fin 3) ∈ (batched wf).lhsBatch from (by decide : ¬(1 : Fin 3) ∈ ([0] : List (Fin 3)))), dif_pos (show (1 : Fin 3) ∈ (batched wf).lhsNonContracting from (by decide : (1 : Fin 3) ∈ ([1] : List (Fin 3))))]
  rfl

theorem batched_lhs2 (i : (⟨3, ![B, M, N]⟩ : Shape).Idx) (q : (batched wf).contr.Idx) : ((batched wf).lhsIdx i q 2).val = (q ⟨0, Nat.one_pos⟩).val :=
  (batched wf).lhsIdx_val_of_single rfl i q

theorem batched_rhs0 (i : (⟨3, ![B, M, N]⟩ : Shape).Idx) (q : (batched wf).contr.Idx) : ((batched wf).rhsIdx i q 0).val = (i 0).val := by
  unfold DotDims.rhsIdx
  rw [dif_pos (show (0 : Fin 3) ∈ (batched wf).rhsBatch from (by decide : (0 : Fin 3) ∈ ([0] : List (Fin 3))))]
  rfl

theorem batched_rhs1 (i : (⟨3, ![B, M, N]⟩ : Shape).Idx) (q : (batched wf).contr.Idx) : ((batched wf).rhsIdx i q 1).val = (i 2).val := by
  unfold DotDims.rhsIdx
  rw [dif_neg (show ¬(1 : Fin 3) ∈ (batched wf).rhsBatch from (by decide : ¬(1 : Fin 3) ∈ ([0] : List (Fin 3)))), dif_pos (show (1 : Fin 3) ∈ (batched wf).rhsNonContracting from (by decide : (1 : Fin 3) ∈ ([1] : List (Fin 3))))]
  rfl

theorem batched_rhs2 (i : (⟨3, ![B, M, N]⟩ : Shape).Idx) (q : (batched wf).contr.Idx) : ((batched wf).rhsIdx i q 2).val = (q ⟨0, Nat.one_pos⟩).val :=
  (batched wf).rhsIdx_val_of_single rfl i q

/-- The host's batched `dot_general`: chunk g's rows against chunk g's table's rows, at (g, p, f). -/
theorem dot_batched {φ₁ φ₂ : FTy} (D : DotDims ⟨3, ![B, M, K]⟩ ⟨3, ![B, N, K]⟩ ⟨3, ![B, M, N]⟩) (hD : D = batched wf)
    (prec : Option ContractPrecision) (a : FVec Ideal ⟨3, ![B, M, K]⟩ φ₁) (w : FVec Ideal ⟨3, ![B, N, K]⟩ φ₂) (g : Fin B) (p : Fin M) (f : Fin N) :
    Host.dotGeneral D prec a w (ix3 g p f) = ∑ d : Fin K, a (ix3 g p d) * w (ix3 g f d) := by
  subst hD
  refine (Ideal.dotGeneral_apply _ prec .single a w (ix3 g p f)).trans ?_
  rw [← Equiv.sum_comp (contrEquiv1 (batched wf) K rfl rfl).symm]
  refine Finset.sum_congr rfl fun k _ => ?_
  have hk := contrEquiv1_symm_val (batched wf) K rfl rfl k
  have el : (batched wf).lhsIdx (ix3 g p f) ((contrEquiv1 (batched wf) K rfl rfl).symm k) = ix3 g p k := funext fun x => Fin.ext (by
    match x with
    | ⟨0, _⟩ => exact batched_lhs0 wf _ _
    | ⟨1, _⟩ => exact batched_lhs1 wf _ _
    | ⟨2, _⟩ => exact (batched_lhs2 wf _ _).trans hk)
  have er : (batched wf).rhsIdx (ix3 g p f) ((contrEquiv1 (batched wf) K rfl rfl).symm k) = ix3 g f k := funext fun x => Fin.ext (by
    match x with
    | ⟨0, _⟩ => exact batched_rhs0 wf _ _
    | ⟨1, _⟩ => exact batched_rhs1 wf _ _
    | ⟨2, _⟩ => exact (batched_rhs2 wf _ _).trans hk)
  rw [el, er]

end Batched

end Cert.LibRowDots

end
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.LibUnitAxisLayout.lean ====
/-
  Layout operations of rank-3 arrays with unit axes, read at an index given by coordinates.

  A value that depends on fewer coordinates than the array it is combined with is carried as an
  array with unit axes and broadcast: a per-sample scalar as [a, 1, 1], a per-lane row as [1, 1, c],
  a per-sample row of lanes as [a, 1, c], each broadcast to [a, b, c]. Reading the broadcast at
  (p, q, r) reads the operand at the coordinates it has, and 0 on its unit axes. The casts that
  insert the middle unit axis, and the slice that picks one entry (k1, k2) of every sample's small
  matrix as an [a, 1, 1] column, are read the same way. Every lemma is the general statement of the
  operation at an index with the two indices written out coordinate by coordinate.
-/
import Idealize.ShloMosaic.Lib.Pipeline.Value
import Idealize.ShloMosaic.Lib.ValueIdx

namespace Idealize.ShloMosaic.UnitAxisLayout

open Idealize.ShloMosaic Idealize.ShloMosaic.ValueIdx

variable {α : Type}

/-! ## Broadcasts to [a, b, c] -/

/-- An [a, 1, 1] column broadcast to [a, b, c] reads, at (p, q, r), the column's entry p. -/
theorem broadcastTo_a11_abc_apply {a b c : ℕ} (v : (⟨3, ![a, 1, 1]⟩ : Shape).Idx → α)
    (h : (⟨3, ![a, 1, 1]⟩ : Shape).Broadcasts ⟨3, ![a, b, c]⟩) (p : Fin a) (q : Fin b) (r : Fin c) :
    broadcastTo ⟨3, ![a, b, c]⟩ v h (ix3 p q r) = v (ix3 p (0 : Fin 1) (0 : Fin 1)) := by
  refine broadcastTo_apply v h (ix3 p q r) (ix3 p (0 : Fin 1) (0 : Fin 1)) fun ax => ?_
  match ax with
  | ⟨0, _⟩ =>
    show p.val = if a = 1 then 0 else p.val
    split
    · have := p.isLt; omega
    · rfl
  | ⟨1, _⟩ => rfl
  | ⟨2, _⟩ => rfl

/-- A [1, 1, c] row broadcast to [a, b, c] reads, at (p, q, r), the row's entry r. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- An [a, 1, c] slab broadcast to [a, b, c] reads, at (p, q, r), the slab's entry (p, r). -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-! ## The cast that inserts a middle unit axis -/

/-- An [a, c] matrix cast to [a, 1, c] reads, at (p, u, r), the matrix at (p, r). -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-! ## One entry of every sample's small matrix, as a column -/

/-- The unit-size slice of an [a, n1, n2] array at offsets (0, o1, o2) is the [a, 1, 1] column of the
    entries (k1, k2) = (o1, o2): at (p, 0, 0) it reads the array at (p, k1, k2). -/
theorem slice_entry_apply {a n1 n2 : ℕ} (o1 o2 : ℕ) (x : (⟨3, ![a, n1, n2]⟩ : Shape).Idx → α)
    (h : (⟨3, ![a, n1, n2]⟩ : Shape).Slices ![0, o1, o2] ⟨3, ![a, 1, 1]⟩) (p : Fin a) (u v : Fin 1)
    (k1 : Fin n1) (k2 : Fin n2) (hk1 : k1.val = o1) (hk2 : k2.val = o2) :
    extractStridedSlice ⟨3, ![a, 1, 1]⟩ ![0, o1, o2] x h (ix3 p u v) = x (ix3 p k1 k2) := by
  refine extractStridedSlice_apply ![0, o1, o2] x h (ix3 p u v) (ix3 p k1 k2) fun ax => ?_
  have hu : u.val = 0 := by omega
  have hv : v.val = 0 := by omega
  match ax with
  | ⟨0, _⟩ => show p.val = 0 + p.val; omega
  | ⟨1, _⟩ => show k1.val = o1 + u.val; omega
  | ⟨2, _⟩ => show k2.val = o2 + v.val; omega

/-- The same entry carried through the flattening [a, 1, 1] → [a] → [a, 1, 1] and broadcast to
    [a, b, c]: at (p, q, r) it is the array's entry (p, k1, k2). -/
theorem broadcast_entry_apply {a n1 n2 b c : ℕ} (o1 o2 : ℕ) (x : (⟨3, ![a, n1, n2]⟩ : Shape).Idx → α)
    (hs : (⟨3, ![a, n1, n2]⟩ : Shape).Slices ![0, o1, o2] ⟨3, ![a, 1, 1]⟩)
    (h1 : (⟨3, ![a, 1, 1]⟩ : Shape).ShapeCasts ⟨1, ![a]⟩) (h2 : (⟨1, ![a]⟩ : Shape).ShapeCasts ⟨3, ![a, 1, 1]⟩)
    (hb : (⟨3, ![a, 1, 1]⟩ : Shape).Broadcasts ⟨3, ![a, b, c]⟩) (p : Fin a) (q : Fin b) (r : Fin c)
    (k1 : Fin n1) (k2 : Fin n2) (hk1 : k1.val = o1) (hk2 : k2.val = o2) :
    broadcastTo ⟨3, ![a, b, c]⟩
        (shapeCast ⟨3, ![a, 1, 1]⟩ (shapeCast ⟨1, ![a]⟩ (extractStridedSlice ⟨3, ![a, 1, 1]⟩ ![0, o1, o2] x hs) h1) h2) hb
        (ix3 p q r)
      = x (ix3 p k1 k2) := by
  rw [broadcastTo_a11_abc_apply, shapeCast_shapeCast]
  exact slice_entry_apply o1 o2 x hs p 0 0 k1 k2 hk1 hk2

end Idealize.ShloMosaic.UnitAxisLayout
-- ==== Proof.KerPayload.lean ====
/-
  The kernel body's arithmetic read at an index.

  The body holds a block of 32 temporal rows, the 16 spectral rows, the scale row, the bias row and the matching
  [4, 32, 16, 1024] block of the input.  At (p, q, h) its normalised position value is the separated form of the layer
  norm of "temporal row p plus spectral row q": the row sums of t, s, t², s² and the inner product t·s (a matrix product
  of rows against rows) give the mean and the second moment, and the value is (t h + s h)·r − mu·r.  What it stores at
  (a, p, q, h) is the input there plus that value times the scale at h plus the bias at h, the same for each batch entry a.
-/
import proofs.«100163_g22428319220377_cont_9to1_50_21_alg».proof.Proof.Gen.KernelIdeal.Skeleton
import proofs.«100163_g22428319220377_cont_9to1_50_21_alg».proof.Proof.Spec
import proofs.«100163_g22428319220377_cont_9to1_50_21_alg».proof.Proof.LibRowReduce
import proofs.«100163_g22428319220377_cont_9to1_50_21_alg».proof.Proof.LibRowDots
import proofs.«100163_g22428319220377_cont_9to1_50_21_alg».proof.Proof.LibRank3Layout
import proofs.«100163_g22428319220377_cont_9to1_50_21_alg».proof.Proof.LibUnitAxisLayout
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx Cert.PosNorm

variable {α : Type}

/-- A vector rsqrt read at an index. -/
theorem rsqrt_apply {s : Shape} (x : FVec Ideal s .f32) (i : s.Idx) : rsqrt x i = Ideal.rsqrt (x i) := rfl

/-- A vector [b] viewed as a row [1, b] and spread over a rows reads, at (p, q), the vector at q. -/
theorem row_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-- A matrix [a, c] given a middle unit axis and spread over b reads, at (p, q, r), the matrix at (p, r). -/
theorem rows_stretch_apply {a b c : ℕ} (x : (⟨2, ![a, c]⟩ : Shape).Idx → α)
    (hc : (⟨2, ![a, c]⟩ : Shape).ShapeCasts ⟨3, ![a, 1, c]⟩)
    (hb : (⟨3, ![a, 1, c]⟩ : Shape).Broadcasts ⟨3, ![a, b, c]⟩) (p : Fin a) (q : Fin b) (r : Fin c) :
    broadcastTo ⟨3, ![a, b, c]⟩ (shapeCast ⟨3, ![a, 1, c]⟩ x hc) hb (ix3 p q r) = x (ix2 p r) :=
  (UnitAxisLayout.broadcastTo_a1c_abc_apply _ hb p q r).trans (UnitAxisLayout.shapeCast_ac_a1c_apply x hc p 0 r)

/-- The normalised position row of the block, before scale and bias: at (p, q, h) the separated form of the layer norm of
    row p of the temporal block plus row q of the spectral table. -/
theorem pay2_apply (v0 : Vec Ideal S32x1024 .f32) (v1 : Vec Ideal S16x1024 .f32) (p : Fin 32) (q : Fin 16) (h : Fin 1024) :
    k0_pay2 (F := Ideal) v0 v1 (ix3 p q h) = kerRow (fun k => v0 (ix2 p k)) (fun k => v1 (ix2 q k)) h := by
  unfold k0_pay2
  simp only [subf_apply, mulf_apply, addf_apply]
  rw [rows_stretch_apply, Cert.Rank3Layout.slab_stretch_apply, Cert.Rank3Layout.column_stretch_apply,
    Cert.Rank3Layout.column_stretch_apply]
  simp only [rsqrt_apply, subf_apply, mulf_apply, addf_apply, broadcast_apply]
  simp only [Cert.LibRowReduce.column_apply, row_apply, Ideal.ofBits_def]
  rw [Cert.LibRowDots.matmul_rows (dot_S32x1024_S16x1024_S32x16_1_1_0_0_n_n).wf dot_S32x1024_S16x1024_S32x16_1_1_0_0_n_n rfl,
    Cert.LibRowReduce.rowSum_apply v0 reduces_S32x1024_S32 p, Cert.LibRowReduce.rowSum_apply (mulf v0 v0) reduces_S32x1024_S32 p,
    Cert.LibRowReduce.rowSum_apply v1 reduces_S16x1024_S16 q, Cert.LibRowReduce.rowSum_apply (mulf v1 v1) reduces_S16x1024_S16 q]
  rfl

/-- A vector [c] cast to [1, 1, c] reads, at (u, v, r), the vector at r. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]; omega)

/-- A row [1, c] flattened to [c], viewed as [1, 1, c] and spread over [a, b, c] reads, at (p, q, r), the row at r. -/
theorem lane_stretch_apply {a b c : ℕ} (x : (⟨2, ![1, c]⟩ : Shape).Idx → α)
    (h1 : (⟨2, ![1, c]⟩ : Shape).ShapeCasts ⟨1, ![c]⟩) (h2 : (⟨1, ![c]⟩ : Shape).ShapeCasts ⟨3, ![1, 1, c]⟩)
    (hb : (⟨3, ![1, 1, c]⟩ : Shape).Broadcasts ⟨3, ![a, b, c]⟩) (p : Fin a) (q : Fin b) (r : Fin c) :
    broadcastTo ⟨3, ![a, b, c]⟩ (shapeCast ⟨3, ![1, 1, c]⟩ (shapeCast ⟨1, ![c]⟩ x h1) h2) hb (ix3 p q r) = x (ix2 (0 : Fin 1) r) :=
  (UnitAxisLayout.broadcastTo_11c_abc_apply _ hb p q r).trans
    ((shapeCast_c_11c_apply _ h2 0 0 r).trans (shapeCast_1a_a_apply x h1 r))

/-- A [1, m, b, c] array broadcast to [n, m, b, c] reads, at (g, k, i, j), the operand at (0, k, i, j). -/
theorem broadcastTo_1mbc_nmbc_apply {n m b c : ℕ} (v : (⟨4, ![1, m, b, c]⟩ : Shape).Idx → α)
    (h : (⟨4, ![1, m, b, c]⟩ : Shape).Broadcasts ⟨4, ![n, m, b, c]⟩) (g : Fin n) (k : Fin m) (i : Fin b) (j : Fin c) :
    broadcastTo ⟨4, ![n, m, b, c]⟩ v h (ix4 g k i j) = v (ix4 (0 : Fin 1) k i j) := by
  refine broadcastTo_apply v h (ix4 g k i j) (ix4 (0 : Fin 1) k i j) fun ax => ?_
  match ax with
  | ⟨0, _⟩ =>
    show (0 : ℕ) = if (1 : ℕ) = 1 then 0 else g.val
    rw [if_pos rfl]
  | ⟨1, _⟩ =>
    show k.val = if m = 1 then 0 else k.val
    split
    · have := k.isLt; omega
    · rfl
  | ⟨2, _⟩ =>
    show i.val = if b = 1 then 0 else i.val
    split
    · have := i.isLt; omega
    · rfl
  | ⟨3, _⟩ =>
    show j.val = if c = 1 then 0 else j.val
    split
    · have := j.isLt; omega
    · rfl

/-- An [m, b, c] array given a leading unit axis and spread over n reads, at (g, k, i, j), the array at (k, i, j). -/
theorem batch_stretch_apply {n m b c : ℕ} (x : (⟨3, ![m, b, c]⟩ : Shape).Idx → α)
    (hc : (⟨3, ![m, b, c]⟩ : Shape).ShapeCasts ⟨4, ![1, m, b, c]⟩)
    (hb : (⟨4, ![1, m, b, c]⟩ : Shape).Broadcasts ⟨4, ![n, m, b, c]⟩) (g : Fin n) (k : Fin m) (i : Fin b) (j : Fin c) :
    broadcastTo ⟨4, ![n, m, b, c]⟩ (shapeCast ⟨4, ![1, m, b, c]⟩ x hc) hb (ix4 g k i j) = x (ix3 k i j) :=
  (broadcastTo_1mbc_nmbc_apply _ hb g k i j).trans (shapeCast_abc_1abc_apply x hc 0 k i j)

/-- What the body stores: the input block plus the normalised position row times the scale row plus the bias row,
    the same for every batch entry. -/
theorem pay1_apply (v42 : FVec Ideal S32x16x1024 .f32) (v43 v48 : Vec Ideal S1x1024 .f32) (v53 : Vec Ideal S4x32x16x1024 .f32)
    (a : Fin 4) (p : Fin 32) (q : Fin 16) (h : Fin 1024) :
    k0_pay1 (F := Ideal) v42 v43 v48 v53 (ix4 a p q h)
      = v53 (ix4 a p q h) + (v42 (ix3 p q h) * v43 (ix2 (0 : Fin 1) h) + v48 (ix2 (0 : Fin 1) h)) := by
  unfold k0_pay1
  simp only [addf_apply]
  rw [shapeCast_self, batch_stretch_apply]
  simp only [addf_apply, mulf_apply]
  rw [lane_stretch_apply, lane_stretch_apply]

end Cert.KernelIdeal.KerValue

end
-- ==== Proof.KerBlocks.lean ====
/-
  From blocks to the array: what the kernel leaves in its [4, 256, 16, 1024] result.

  Grid point t holds temporal rows 32t … 32t+31: window 0 stages those rows of the temporal table, windows 1–3 the whole
  spectral table, scale row and bias row, windows 4 and 5 the slabs (·, 32t … 32t+31, ·, ·) of the input and of the
  result.  So what point t writes back is block t of ONE function of the arrays as the region finds them — the input
  plus the separated layer norm of "temporal row + spectral row" times the scale plus the bias — and the eight slabs
  tile the result: the point that covers temporal row r is r / 32.
-/
import proofs.«100163_g22428319220377_cont_9to1_50_21_alg».proof.Proof.Gen.KernelIdeal.Frame
import proofs.«100163_g22428319220377_cont_9to1_50_21_alg».proof.Proof.KerPayload
import Idealize.ShloMosaic.Lib.Pipeline.Value

noncomputable section

namespace Cert.KernelIdeal.KerValue

open Cert.KernelIdeal Cert.KernelIdeal.Gen Idealize.ShloMosaic Idealize.ShloMosaic.TcCoe Idealize.SL.Sem
open Idealize.ShloMosaic.ValueIdx Cert.PosNorm
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz4 : (![0, 0, 0, 0] : Fin 4 → Nat) = fun _ => 0 := funext fun a => by fin_cases a <;> rfl

/-- The result at (a, r, q, h): the input there plus the separated layer norm of temporal row r plus spectral row q, at
    lane h, times the scale plus the bias. -/
def midAt (xr : S4x256x16x1024.Idx → EReal) (T : S256x1024.Idx → EReal) (S : S16x1024.Idx → EReal)
    (g1 b1 : S1x1024.Idx → EReal) (a : Fin 4) (r : Fin 256) (q : Fin 16) (h : Fin 1024) : EReal :=
  xr (ix4 a r q h) + (kerRow (fun k => T (ix2 r k)) (fun k => S (ix2 q k)) h * g1 (ix2 (0 : Fin 1) h) + b1 (ix2 (0 : Fin 1) h))

/-- The whole [4, 256, 16, 1024] result as one function of the arrays the region finds. -/
def mid (xr : S4x256x16x1024.Idx → EReal) (T : S256x1024.Idx → EReal) (S : S16x1024.Idx → EReal)
    (g1 b1 : S1x1024.Idx → EReal) : S4x256x16x1024.Idx → EReal :=
  fun i => midAt xr T S g1 b1 (i 0) (i 1) (i 2) (i 3)

/-- The printed index maps over the eight points: window 0 and the two slabs move with the point along the temporal
    axis, everything else stays at block zero. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 4) = 0 ∧ win0_4.index t (1 : Fin 4) = t.val ∧ win0_4.index t (2 : Fin 4) = 0 ∧ win0_4.index t (3 : Fin 4) = 0
    ∧ win0_5.index t (0 : Fin 4) = 0 ∧ win0_5.index t (1 : Fin 4) = t.val ∧ win0_5.index t (2 : Fin 4) = 0 ∧ win0_5.index t (3 : Fin 4) = 0 :=
  (by decide +kernel : ∀ t : Fin grid0.N, _)

/-- Window 0's block at point t: rows 32t … 32t+31 of the temporal table. -/
theorem rd0 (c : Dev nD) (t : Fin cfg0.N) (p : Fin 32) (k : Fin 1024) (P : Fin 256) (hP : P.val = 32 * t.val + p.val) :
    (iblk m c 0 t : Vec Ideal S32x1024 .f32) (ix2 p k) = (V m c main_arg1 : S256x1024.Idx → EReal) (ix2 P k) := by
  obtain ⟨e0, e1, -⟩ := idx_facts t
  unfold iblk
  rw [View.read_apply]
  show (V m c main_arg1 : S256x1024.Idx → EReal) _ = (V m c main_arg1 : S256x1024.Idx → EReal) _
  congr 1
  funext a
  apply Fin.ext
  match a with
  | ⟨0, _⟩ => show win0_0.index t (0 : Fin 2) * 32 + 1 * p.val = P.val; rw [e0, hP]; omega
  | ⟨1, _⟩ => show win0_0.index t (1 : Fin 2) * 1024 + 1 * k.val = k.val; rw [e1]; omega

/-- Window 1's block: the whole spectral table. -/
theorem rd1 (c : Dev nD) (t : Fin cfg0.N) (q : Fin 16) (k : Fin 1024) :
    (iblk m c 1 t : Vec Ideal S16x1024 .f32) (ix2 q k) = (V m c main_arg2 : S16x1024.Idx → EReal) (ix2 q k) := by
  obtain ⟨-, -, e0, e1, -⟩ := idx_facts t
  unfold iblk
  rw [View.read_apply]
  show (V m c main_arg2 : S16x1024.Idx → EReal) _ = (V m c main_arg2 : S16x1024.Idx → EReal) _
  congr 1
  funext a
  apply Fin.ext
  match a with
  | ⟨0, _⟩ => show win0_1.index t (0 : Fin 2) * 16 + 1 * q.val = q.val; rw [e0]; omega
  | ⟨1, _⟩ => show win0_1.index t (1 : Fin 2) * 1024 + 1 * k.val = k.val; rw [e1]; omega

/-- Window 2's block: the whole scale row. -/
theorem rd2 (c : Dev nD) (t : Fin cfg0.N) (u : Fin 1) (k : Fin 1024) :
    (iblk m c 2 t : Vec Ideal S1x1024 .f32) (ix2 u k) = (V m c main_v1 : S1x1024.Idx → EReal) (ix2 u k) := by
  obtain ⟨-, -, -, -, e0, e1, -⟩ := idx_facts t
  unfold iblk
  rw [View.read_apply]
  show (V m c main_v1 : S1x1024.Idx → EReal) _ = (V m c main_v1 : S1x1024.Idx → EReal) _
  congr 1
  funext a
  apply Fin.ext
  match a with
  | ⟨0, _⟩ => show win0_2.index t (0 : Fin 2) * 1 + 1 * u.val = u.val; rw [e0]; omega
  | ⟨1, _⟩ => show win0_2.index t (1 : Fin 2) * 1024 + 1 * k.val = k.val; rw [e1]; omega

/-- Window 3's block: the whole bias row. -/
theorem rd3 (c : Dev nD) (t : Fin cfg0.N) (u : Fin 1) (k : Fin 1024) :
    (iblk m c 3 t : Vec Ideal S1x1024 .f32) (ix2 u k) = (V m c main_v2 : S1x1024.Idx → EReal) (ix2 u k) := by
  obtain ⟨-, -, -, -, -, -, e0, e1, -⟩ := idx_facts t
  unfold iblk
  rw [View.read_apply]
  show (V m c main_v2 : S1x1024.Idx → EReal) _ = (V m c main_v2 : S1x1024.Idx → EReal) _
  congr 1
  funext a
  apply Fin.ext
  match a with
  | ⟨0, _⟩ => show win0_3.index t (0 : Fin 2) * 1 + 1 * u.val = u.val; rw [e0]; omega
  | ⟨1, _⟩ => show win0_3.index t (1 : Fin 2) * 1024 + 1 * k.val = k.val; rw [e1]; omega

/-- Window 4's block at point t: the slab (·, 32t … 32t+31, ·, ·) of the input. -/
theorem rd4 (c : Dev nD) (t : Fin cfg0.N) (a : Fin 4) (p : Fin 32) (q : Fin 16) (k : Fin 1024) (P : Fin 256)
    (hP : P.val = 32 * t.val + p.val) :
    (iblk m c 4 t : Vec Ideal S4x32x16x1024 .f32) (ix4 a p q k) = (V m c main_v0 : S4x256x16x1024.Idx → EReal) (ix4 a P q k) := by
  obtain ⟨-, -, -, -, -, -, -, -, e0, e1, e2, e3, -⟩ := idx_facts t
  unfold iblk
  rw [View.read_apply]
  show (V m c main_v0 : S4x256x16x1024.Idx → EReal) _ = (V m c main_v0 : S4x256x16x1024.Idx → EReal) _
  congr 1
  funext x
  apply Fin.ext
  match x with
  | ⟨0, _⟩ => show win0_4.index t (0 : Fin 4) * 4 + 1 * a.val = a.val; rw [e0]; omega
  | ⟨1, _⟩ => show win0_4.index t (1 : Fin 4) * 32 + 1 * p.val = P.val; rw [e1, hP]; omega
  | ⟨2, _⟩ => show win0_4.index t (2 : Fin 4) * 16 + 1 * q.val = q.val; rw [e2]; omega
  | ⟨3, _⟩ => show win0_4.index t (3 : Fin 4) * 1024 + 1 * k.val = k.val; rw [e3]; omega

/-- Where the result's block at point t sits: (a, p, q, k) of the block is (a, 32t + p, q, k) of the array. -/
theorem emb5 (t : Fin cfg0.N) (a : Fin 4) (p : Fin 32) (q : Fin 16) (k : Fin 1024) (P : Fin 256)
    (hP : P.val = 32 * t.val + p.val) :
    ((cfg0.win 5).blk t).view.emb (ix4 a p q k) = (ix4 a P q k : S4x256x16x1024.Idx) := by
  obtain ⟨-, -, -, -, -, -, -, -, -, -, -, -, e0, e1, e2, e3⟩ := idx_facts t
  funext x
  apply Fin.ext
  match x with
  | ⟨0, _⟩ => show win0_5.index t (0 : Fin 4) * 4 + 1 * a.val = a.val; rw [e0]; omega
  | ⟨1, _⟩ => show win0_5.index t (1 : Fin 4) * 32 + 1 * p.val = P.val; rw [e1, hP]; omega
  | ⟨2, _⟩ => show win0_5.index t (2 : Fin 4) * 16 + 1 * q.val = q.val; rw [e2]; omega
  | ⟨3, _⟩ => show win0_5.index t (3 : Fin 4) * 1024 + 1 * k.val = k.val; rw [e3]; omega

/-- WHAT POINT t WRITES BACK is block t of the one function `mid` of the arrays as the region finds them. -/
theorem flushed_eq (c : Dev nD) (t : Fin cfg0.N) :
    (dats m 0 c).flushed 5 t = ((cfg0.win 5).blk t).view.read (Elt Ideal)
      (mid (V m c main_v0) (V m c main_arg1) (V m c main_arg2) (V m c main_v1) (V m c main_v2)) := by
  show (cfg0.win 5).cut (grid0.coords t) ((dats m 0 c).after 5 t) = _
  rw [after0_5]
  unfold out0_5
  rw [View.canon_unit_zero hz4]
  simp only [View.ld_unit_zero (S := S32x1024) hz2, View.ld_unit_zero (S := S16x1024) hz2,
    View.ld_unit_zero (S := S1x1024) hz2, View.ld_unit_zero (S := S4x32x16x1024) hz4]
  funext j
  obtain ⟨a, p, q, k, rfl⟩ : ∃ (a : Fin 4) (p : Fin 32) (q : Fin 16) (k : Fin 1024), j = ix4 a p q k :=
    ⟨j 0, j 1, j 2, j 3, eq_ix4 j⟩
  have hN : cfg0.N = 8 := N_0
  have htl : t.val < 8 := hN ▸ t.isLt
  let P : Fin 256 := ⟨32 * t.val + p.val, by have := p.isLt; omega⟩
  rw [View.read_apply, emb5 t a p q k P rfl]
  refine (pay1_apply _ _ _ _ a p q k).trans ?_
  rw [pay2_apply, rd4 m c t a p q k P rfl, rd2, rd3]
  have e0 : (fun d => (iblk m c 0 t : Vec Ideal S32x1024 .f32) (ix2 p d)) = fun d => (V m c main_arg1 : S256x1024.Idx → EReal) (ix2 P d) :=
    funext fun d => rd0 m c t p d P rfl
  have e1 : (fun d => (iblk m c 1 t : Vec Ideal S16x1024 .f32) (ix2 q d)) = fun d => (V m c main_arg2 : S16x1024.Idx → EReal) (ix2 q d) :=
    funext fun d => rd1 m c t q d
  rw [e0, e1]
  rfl

/-- An index of the result is in point t's block iff each coordinate is in the block's range on its axis. -/
theorem mem_blk5 (t : Fin cfg0.N) (i : S4x256x16x1024.Idx) :
    i ∈ ((cfg0.win 5).blk t).view.set ↔ ∀ a : Fin 4, win0_5.index t a * S4x32x16x1024.size a ≤ (i a).val ∧ (i a).val < win0_5.index t a * S4x32x16x1024.size a + S4x32x16x1024.size a := by
  show i ∈ ((View.whole main_v3).slice (win0_5.rect t)).set ↔ _
  rw [View.set_slice_whole, Rect.mem_set_unit]
  exact Iff.rfl

/-- The eight slabs tile the result: temporal row r lies in the slab of point r / 32. -/
theorem cover5 (i : S4x256x16x1024.Idx) :
    ∃ t : Fin cfg0.N, (cfg0.win 5).flush t = true ∧ i ∈ ((cfg0.win 5).blk t).view.set := by
  have hN : cfg0.N = 8 := N_0
  have h0 : (i 0).val < 4 := (i 0).isLt
  have h1 : (i 1).val < 256 := (i 1).isLt
  have h2 : (i 2).val < 16 := (i 2).isLt
  have h3 : (i 3).val < 1024 := (i 3).isLt
  let t : Fin cfg0.N := ⟨(i 1).val / 32, by rw [hN]; omega⟩
  have ht : t.val = (i 1).val / 32 := rfl
  obtain ⟨-, -, -, -, -, -, -, -, -, -, -, -, e0, e1, e2, e3⟩ := idx_facts t
  refine ⟨t, flush0_5 t, ?_⟩
  rw [mem_blk5]
  intro a
  match a with
  | ⟨0, _⟩ => show win0_5.index t (0 : Fin 4) * 4 ≤ (i 0).val ∧ (i 0).val < win0_5.index t (0 : Fin 4) * 4 + 4; rw [e0]; omega
  | ⟨1, _⟩ => show win0_5.index t (1 : Fin 4) * 32 ≤ (i 1).val ∧ (i 1).val < win0_5.index t (1 : Fin 4) * 32 + 32; rw [e1, ht]; omega
  | ⟨2, _⟩ => show win0_5.index t (2 : Fin 4) * 16 ≤ (i 2).val ∧ (i 2).val < win0_5.index t (2 : Fin 4) * 16 + 16; rw [e2]; omega
  | ⟨3, _⟩ => show win0_5.index t (3 : Fin 4) * 1024 ≤ (i 3).val ∧ (i 3).val < win0_5.index t (3 : Fin 4) * 1024 + 1024; rw [e3]; omega

/-- THE ARRAY after the region: `mid` of the arrays as the region finds them. -/
theorem final5 (c : Dev nD) :
    (dats m 0 c).arrAt 5 cfg0.N = mid (V m c main_v0) (V m c main_arg1) (V m c main_arg2) (V m c main_v1) (V m c main_v2) :=
  (dats m 0 c).arrAt_eq_of_cover 5 _ (fun t _ => flushed_eq m c t) cover5

end Cert.KernelIdeal.KerValue

end
-- ==== Proof.LibMiddleSplit.lean ====
/-
  Splitting and merging the third axis of a four-axis array in row-major order.

  An array of shape `[n, 1, m, c]` and an array of shape `[n, a, b, c]` with `m = a · b` have the same number of
  entries, and the row-major position of the index `(g, 0, r, k)` of the first, `(g · m + r) · c + k`, is that of
  the index `(g, i, j, k)` of the second, `((g · a + i) · b + j) · c + k`, exactly when `r = i · b + j`.  So the
  row-major reshape from the first shape to the second (the split of the axis of length `m` into `a` groups of
  `b`) reads, at `(g, i, j, k)`, the operand at `(g, 0, i · b + j, k)`; and the inverse reshape (the merge) reads,
  at `(g, u, i · b + j, k)`, the operand at `(g, i, j, k)`.  That the two shapes have equally many entries (the
  condition a reshape carries) gives `m = a · b` as soon as `n` and `c` are positive, which the indices witness.
-/
import Idealize.ShloMosaic.Lib.Pipeline.Value
import Idealize.ShloMosaic.Lib.ValueIdx

namespace Cert.LibMiddleSplit

open Idealize.ShloMosaic Idealize.ShloMosaic.ValueIdx

variable {α : Type}

/-- Equally many entries in `[n, 1, m, c]` and `[n, a, b, c]`, with `n` and `c` positive, force `m = a · b`. -/
theorem middle_eq {n a b m c : ℕ} (hn : 0 < n) (hc : 0 < c)
    (h : (⟨4, ![n, a, b, c]⟩ : Shape).numel = (⟨4, ![n, 1, m, c]⟩ : Shape).numel) : m = a * b := by
  have e : n * a * b * c = n * 1 * m * c := by
    simpa [Shape.numel, Fin.prod_univ_four] using h
  rw [Nat.mul_one] at e
  have e1 : n * a * b = n * m := Nat.eq_of_mul_eq_mul_right hc e
  rw [Nat.mul_assoc] at e1
  exact (Nat.eq_of_mul_eq_mul_left hn e1).symm

/-- The row-major positions of `(g, 0, r, k)` in `[n, 1, m, c]` and of `(g, i, j, k)` in `[n, a, b, c]` agree
    when `m = a · b` and `r = i · b + j`. -/
theorem position_eq {a b m c : ℕ} (g i j k r : ℕ) (hm : m = a * b) (hr : r = i * b + j) :
    ((g * 1 + 0) * m + r) * c + k = ((g * a + i) * b + j) * c + k := by
  rw [hm, hr, Nat.mul_one, Nat.add_zero, Nat.add_mul (g * a) i b, Nat.mul_assoc g a b, Nat.add_assoc]

/-- THE SPLIT: an `[n, 1, m, c]` array reshaped to `[n, a, b, c]` reads, at `(g, i, j, k)`, the operand at
    `(g, 0, r, k)` with `r = i · b + j`. -/
theorem shapeCast_split_apply {n a b m c : ℕ} (x : (⟨4, ![n, 1, m, c]⟩ : Shape).Idx → α)
    (h : (⟨4, ![n, 1, m, c]⟩ : Shape).ShapeCasts ⟨4, ![n, a, b, c]⟩) (g : Fin n) (i : Fin a) (j : Fin b) (k : Fin c)
    (r : Fin m) (hr : r.val = i.val * b + j.val) :
    shapeCast ⟨4, ![n, a, b, c]⟩ x h (ix4 g i j k) = x (ix4 g (0 : Fin 1) r k) :=
  shapeCast_apply x h _ _ (by
    have hm : m = a * b := middle_eq g.pos k.pos h
    rw [Shape.rowMajor_val_four, Shape.rowMajor_val_four]
    show ((g.val * 1 + 0) * m + r.val) * c + k.val = ((g.val * a + i.val) * b + j.val) * c + k.val
    exact position_eq g.val i.val j.val k.val r.val hm hr)

/-- THE MERGE: an `[n, a, b, c]` array reshaped to `[n, 1, m, c]` reads, at `(g, u, r, k)` with `r = i · b + j`,
    the operand at `(g, i, j, k)`, whatever the unit coordinate `u`. -/
theorem shapeCast_merge_apply {n a b m c : ℕ} (x : (⟨4, ![n, a, b, c]⟩ : Shape).Idx → α)
    (h : (⟨4, ![n, a, b, c]⟩ : Shape).ShapeCasts ⟨4, ![n, 1, m, c]⟩) (g : Fin n) (u : Fin 1) (r : Fin m) (k : Fin c)
    (i : Fin a) (j : Fin b) (hr : r.val = i.val * b + j.val) :
    shapeCast ⟨4, ![n, 1, m, c]⟩ x h (ix4 g u r k) = x (ix4 g i j k) :=
  shapeCast_apply x h _ _ (by
    have hm : m = a * b := middle_eq g.pos k.pos h.symm
    have hu : u.val = 0 := by omega
    rw [Shape.rowMajor_val_four, Shape.rowMajor_val_four]
    show ((g.val * a + i.val) * b + j.val) * c + k.val = ((g.val * 1 + u.val) * m + r.val) * c + k.val
    rw [hu]
    exact (position_eq g.val i.val j.val k.val r.val hm hr).symm)

end Cert.LibMiddleSplit
-- ==== Proof.KerRun.lean ====
/-
  The kernel program's run, read: the region's [4, 256, 16, 1024] result viewed back as [4, 1, 4096, 1024].

  Before the region the input is viewed as [4, 256, 16, 1024] (token r is temporal row r / 16, spectral row r % 16) and
  the scale and bias vectors as rows [1, 1024]; after it the result is viewed back.  Token r of the final array is entry
  (r / 16, r % 16) of the region's result, so the program's result is the separated form of the specification.
-/
import proofs.«100163_g22428319220377_cont_9to1_50_21_alg».proof.Proof.KerBlocks
import proofs.«100163_g22428319220377_cont_9to1_50_21_alg».proof.Proof.LibMiddleSplit
import Idealize.ShloMosaic.Lib.StableHlo.Run
import Idealize.ShloMosaic.Lib.ValueLayout

noncomputable section

namespace Cert.KernelIdeal.KerValue

open Cert.KernelIdeal Cert.KernelIdeal.Gen Idealize.ShloMosaic Idealize.ShloMosaic.TcCoe Idealize.SL.Sem
open Idealize.ShloMosaic.ValueIdx Cert.PosNorm Idealize.ShloMosaic.StableHlo
open Idealize.ShloMosaic.Pipeline (Dat)

variable (m : (ℓ : Loc nD τ sig) → Buf (Elt Ideal) ℓ) (ρ : Dev nD → PrngReg)

/-- The input as the region finds it: the launch contents viewed as [4, 256, 16, 1024]. -/
theorem V_v0 (c : Dev nD) : (V m c main_v0 : S4x256x16x1024.Idx → EReal)
    = shapeCast S4x256x16x1024 (m ((c : Thread nD τ).loc main_arg0)) shapeCasts_S4x1x4096x1024_S4x256x16x1024 := by
  show StableHlo.after hostOps0 (fun b => m (c, b)) (Proc.devRef .tc main_v0) = _
  after_results
  rfl

/-- The scale as the region finds it: the launch vector viewed as a row. -/
theorem V_v1 (c : Dev nD) : (V m c main_v1 : S1x1024.Idx → EReal)
    = shapeCast S1x1024 (m ((c : Thread nD τ).loc main_arg3)) shapeCasts_S1024_S1x1024 := by
  show StableHlo.after hostOps0 (fun b => m (c, b)) (Proc.devRef .tc main_v1) = _
  after_results
  rfl

/-- The bias as the region finds it: the launch vector viewed as a row. -/
theorem V_v2 (c : Dev nD) : (V m c main_v2 : S1x1024.Idx → EReal)
    = shapeCast S1x1024 (m ((c : Thread nD τ).loc main_arg4)) shapeCasts_S1024_S1x1024 := by
  show StableHlo.after hostOps0 (fun b => m (c, b)) (Proc.devRef .tc main_v2) = _
  after_results
  rfl

/-- The program's result: the region's array viewed back as [4, 1, 4096, 1024] is the separated form of the
    specification on the launch arrays. -/
theorem tail_eq (c : Dev nD) :
    Pipeline.afterTail₀ cfgs (dats m) 0 (V0 m) [hostOps1] c main_v4
      = Gk (m ((c : Thread nD τ).loc main_arg0)) (m ((c : Thread nD τ).loc main_arg1)) (m ((c : Thread nD τ).loc main_arg2))
          (m ((c : Thread nD τ).loc main_arg3)) (m ((c : Thread nD τ).loc main_arg4)) := by
  unfold Pipeline.afterTail₀
  show StableHlo.after hostOps1 _ (Proc.devRef .tc main_v4) = _
  after_results
  funext i
  show shapeCast S4x1x4096x1024 (Pipeline.withArrays spec0 c (V0 m c) (fun w => (dats m 0 c).arrAt w cfg0.N)
      (Proc.devRef .tc (Pipeline.arrRef spec0 5))) shapeCasts_S4x256x16x1024_S4x1x4096x1024 i = _
  rw [Pipeline.withArrays_arr spec0 launch0.win.arr_inj c _ _ 5, final5]
  obtain ⟨a, u, r, h, rfl⟩ : ∃ (a : Fin 4) (u : Fin 1) (r : Fin 4096) (h : Fin 1024), i = ix4 a u r h :=
    ⟨i 0, i 1, i 2, i 3, eq_ix4 i⟩
  have hu : u = 0 := Subsingleton.elim _ _
  subst hu
  let R : Fin 256 := ⟨r.val / 16, by have := r.isLt; omega⟩
  let Q : Fin 16 := ⟨r.val % 16, by omega⟩
  have hr : r.val = R.val * 16 + Q.val := by show r.val = r.val / 16 * 16 + r.val % 16; omega
  rw [Cert.LibMiddleSplit.shapeCast_merge_apply _ _ a 0 r h R Q hr, Gk_apply]
  show midAt _ _ _ _ _ a R Q h = _
  unfold midAt
  rw [V_v0, V_v1, V_v2, Cert.LibMiddleSplit.shapeCast_split_apply _ _ a R Q h r hr, shapeCast_a_1a_apply, shapeCast_a_1a_apply,
    V_main_arg1, V_main_arg2]
  rfl

/-- Every weakly fair execution of the kernel program terminates with its result at the separated form of the
    specification on the launch arrays, and the five argument arrays unchanged. -/
theorem run : θ_run (defs (F := Ideal)) (onTc (τ := τ) (main (F := Ideal))) ⟨m, fun _ => 0, ρ⟩ fun r => ∀ c : Dev nD,
      r.2.mem ((c.tc : Thread nD τ).loc main_v4)
          = Gk (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.LibAffineFold.lean ====
/-
  Folding a normalisation into one multiply-add, on the extended reals (imports the extended-real operations only).

  Normalising a value `x` with a mean `μ`, a variance term `s > 0`, a weight `w` and a bias `b` can be
  written in two ways. The direct one subtracts the mean, divides by the standard deviation `√s`, scales and
  shifts: `((x - μ) / √s) · w + b`. The folded one first forms a scale `w · (1/√s)` and a shift
  `b - μ · scale` (both independent of `x`) and then needs a single multiply-add: `x · scale + shift`.

  For real `x, μ, w, b` and real `s > 0` all the intermediate values are real numbers, the reciprocal square root
  is the reciprocal of the square root, division by `√s ≠ 0` is multiplication by its reciprocal, and the two
  forms agree by distributivity in `ℝ`. (Distributivity is what needs every value finite: on the extended reals
  it fails at the infinities, and for `s ≤ 0` the reciprocal square root and the quotient take different
  conventional values, so the hypothesis `0 < s` cannot be dropped.)
-/
import Idealize.ShloMosaic.PureOps.Ideal

namespace Cert.AffineFold

open Idealize.ShloMosaic

/-- For a real `s > 0` the reciprocal square root on the extended reals is the real `(√s)⁻¹`. -/
theorem rsqrt_pos (s : ℝ) (hs : 0 < s) : Ideal.rsqrt (s : EReal) = (((Real.sqrt s)⁻¹ : ℝ) : EReal) := by
  rw [Ideal.rsqrt_coe, if_neg (not_lt.mpr hs.le), if_neg hs.ne']

/-- For a real `s > 0` the square root on the extended reals is the real `√s`. -/
theorem sqrt_pos (s : ℝ) (hs : 0 < s) : Ideal.sqrt (s : EReal) = ((Real.sqrt s : ℝ) : EReal) := by
  rw [Ideal.sqrt_coe, if_neg (not_lt.mpr hs.le)]

/-- The folded multiply-add equals the direct normalisation: for reals `x μ w b` and `s > 0`,
    `x · (w · s^(-1/2)) + (b - μ · (w · s^(-1/2))) = ((x - μ) / √s) · w + b`. -/
theorem folded_eq_direct (x μ w b s : ℝ) (hs : 0 < s) :
    (x : EReal) * ((w : EReal) * Ideal.rsqrt (s : EReal))
        + ((b : EReal) - (μ : EReal) * ((w : EReal) * Ideal.rsqrt (s : EReal)))
      = Ideal.div ((x : EReal) - (μ : EReal)) (Ideal.sqrt (s : EReal)) * (w : EReal) + (b : EReal) := by
  have hq : Real.sqrt s ≠ 0 := (Real.sqrt_pos.mpr hs).ne'
  rw [rsqrt_pos s hs, sqrt_pos s hs, Ideal.div_coe hq]
  rw [← EReal.coe_mul, ← EReal.coe_mul, ← EReal.coe_mul, ← EReal.coe_sub, ← EReal.coe_add, ← EReal.coe_sub,
    ← EReal.coe_mul, ← EReal.coe_mul, ← EReal.coe_add]
  congr 1
  rw [one_div]
  ring

end Cert.AffineFold
-- ==== Proof.LibSumAssoc.lean ====
/-
  A general fact about finite double sums of extended reals, used to re-associate a product of three matrices.
  On the extended reals multiplication does not distribute over addition at the infinities, so the interchange
  below is stated for REAL entries (each entry the image of a real number): then both sides are the image of
  the same real double sum.
-/
import Idealize.ShloMosaic.PureOps.Ideal

namespace ERealSums

/-- The embedding of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of real entries is a real entry. -/
theorem sum_real {ι : Type*} (s : Finset ι) (f : ι → EReal) (h : ∀ i, ∃ r : ℝ, f i = r) : ∃ r : ℝ, ∑ i ∈ s, f i = r := by
  choose g hg using h
  exact ⟨∑ i ∈ s, g i, by rw [coe_sum]; exact Finset.sum_congr rfl fun i _ => hg i⟩

/-- A product of real entries is a real entry. -/
theorem mul_real {a b : EReal} (ha : ∃ r : ℝ, a = r) (hb : ∃ r : ℝ, b = r) : ∃ r : ℝ, a * b = r := by
  obtain ⟨r, rfl⟩ := ha; obtain ⟨s, rfl⟩ := hb
  exact ⟨r * s, (EReal.coe_mul r s).symm⟩

/-- RE-ASSOCIATING A TRIPLE PRODUCT: for a row `a`, a matrix `x` and a column `w` of real entries,
    `∑ₖ (∑ⱼ aⱼ·xⱼₖ)·wₖ = ∑ⱼ aⱼ·(∑ₖ xⱼₖ·wₖ)` — the (row · matrix) · column product is the row · (matrix · column)
    product. -/
theorem sum_mul_sum_assoc {J K : Type*} [Fintype J] [Fintype K] (a : J → EReal) (x : J → K → EReal) (w : K → EReal)
    (ha : ∀ j, ∃ r : ℝ, a j = r) (hx : ∀ j k, ∃ r : ℝ, x j k = r) (hw : ∀ k, ∃ r : ℝ, w k = r) :
    ∑ k, (∑ j, a j * x j k) * w k = ∑ j, a j * ∑ k, x j k * w k := by
  choose a' ha using ha
  choose x' hx using hx
  choose w' hw using hw
  simp only [ha, hx, hw, ← EReal.coe_mul, ← coe_sum]
  refine congrArg _ ?_
  simp only [Finset.sum_mul, Finset.mul_sum]
  rw [Finset.sum_comm]
  exact Finset.sum_congr rfl fun j _ => Finset.sum_congr rfl fun k _ => by ring

end ERealSums
-- ==== Proof.LibWords.lean ====
/-
  The real numbers that a few 32-bit float words denote, and the choice of real representatives.

  At the ideal instance a float constant is the exact value of its binary word.  The words below
  are those of the small literals `0`, `1`, `2`, `-1/2` and `50000`; each value is computed from
  the word's sign, exponent and significand fields.  The last statement turns "every entry is
  the image of some real" into one real-valued family, the form in which an identity over the
  reals is applied to a vector of extended reals.
-/
import Mathlib.Tactic
import Idealize.ShloMosaic.PureOps.Ideal

namespace Cert.Proof.Words

open Idealize.ShloMosaic

/-- The word `0x00000000` denotes `0`. -/
theorem ofBits_f32_zero : Ideal.ofBits .f32 0x00000000#32 = ((0 : ℝ) : EReal) := by
  simp [Ideal.ofBits, Ideal.ieee]

/-- The word `0x3F800000` denotes `1`: exponent field `127`, significand `0`. -/
theorem ofBits_f32_one : Ideal.ofBits .f32 0x3F800000#32 = ((1 : ℝ) : EReal) := by
  simp [Ideal.ofBits, Ideal.ieee, -EReal.coe_mul] <;> norm_num

/-- The word `0x40000000` denotes `2`: exponent field `128`, significand `0`. -/
theorem ofBits_f32_two : Ideal.ofBits .f32 0x40000000#32 = ((2 : ℝ) : EReal) := by
  simp [Ideal.ofBits, Ideal.ieee, -EReal.coe_mul] <;> norm_num

/-- The word `0xBF000000` denotes `-1/2`: sign set, exponent field `126`, significand `0`. -/
theorem ofBits_f32_negHalf : Ideal.ofBits .f32 0xBF000000#32 = ((-(1 / 2) : ℝ) : EReal) := by
  simp [Ideal.ofBits, Ideal.ieee, -EReal.coe_mul] <;> norm_num

/-- The word `0x47435000` denotes `50000`: exponent field `142`, so the value is
    `(2^23 + 0x435000) · 2^(142 - 127 - 23) = 12800000 / 256`. -/
theorem ofBits_f32_50000 : Ideal.ofBits .f32 0x47435000#32 = ((50000 : ℝ) : EReal) := by
  simp [Ideal.ofBits, Ideal.ieee, -EReal.coe_mul] <;> norm_num

/-- A family of extended reals each of which is the image of a real is the image of one family of
    reals. -/
theorem exists_real_family {ι : Type*} {v : ι → EReal} (h : ∀ i, ∃ r : ℝ, v i = (r : EReal)) :
    ∃ y : ι → ℝ, v = fun i => (y i : EReal) :=
  ⟨fun i => (h i).choose, funext fun i => (h i).choose_spec⟩

end Cert.Proof.Words
-- ==== Proof.Core.lean ====
/-
  The real-number core of the position-encoding normalisation.

  For rows `t` and `s` of real numbers (1024 lanes) the separated form of the layer norm of `t + s` — built from
  the sums of `t`, `s`, `t²`, `s²` and `t·s` — equals the textbook form. Every intermediate value is the image of a
  real number: the mean is `(Σt + Σs)/n = Σ(t+s)/n`; the mean of the squared deviations `Σ(p-μ)²/n` equals
  `Σp²/n - μ²` with `Σp² = Σt² + Σs² + 2Σts`; this variance is non-negative and the epsilon is positive, so the
  argument of the reciprocal square root is a positive real and its value is the real `(√·)⁻¹`; finally
  `p·R - μ·R = (p - μ)·R` in the reals.
-/
import proofs.«100163_g22428319220377_cont_9to1_50_21_alg».proof.Proof.Spec
import proofs.«100163_g22428319220377_cont_9to1_50_21_alg».proof.Proof.LibAffineFold
import proofs.«100163_g22428319220377_cont_9to1_50_21_alg».proof.Proof.LibSumAssoc
import proofs.«100163_g22428319220377_cont_9to1_50_21_alg».proof.Proof.LibWords
import Mathlib.Tactic

noncomputable section

namespace Cert.PosNorm

open Idealize.ShloMosaic Idealize.ShloMosaic.ValueIdx

/-! ## The four words as real numbers -/

/-- The word `0x44800000` denotes `1024 = 2^10`: exponent field `137`, significand `0`. -/
theorem wN_eq : wN = ((1024 : ℝ) : EReal) := by
  show Ideal.ofBits .f32 0x44800000#32 = _
  simp [Ideal.ofBits, Ideal.ieee, -EReal.coe_mul] <;> norm_num

/-- The word `0x3A800000` denotes `1/1024 = 2^(-10)`: exponent field `117`, significand `0`. -/
theorem wInvN_eq : wInvN = ((1 / 1024 : ℝ) : EReal) := by
  show Ideal.ofBits .f32 0x3A800000#32 = _
  simp [Ideal.ofBits, Ideal.ieee, -EReal.coe_mul] <;> norm_num

/-- The word `0x40000000` denotes `2`. -/
theorem wTwo_eq : wTwo = ((2 : ℝ) : EReal) := Cert.Proof.Words.ofBits_f32_two

/-- The word `0x358637BD` (the epsilon) denotes a positive real: sign clear, exponent field `107`. -/
theorem wEps_pos : ∃ e : ℝ, 0 < e ∧ wEps = (e : EReal) := by
  refine ⟨((2 ^ 23 + 0x0637BD : ℕ) : ℝ) * (2 : ℝ) ^ ((107 : ℤ) - 127 - 23), by positivity, ?_⟩
  show Ideal.ofBits .f32 0x358637BD#32 = _
  simp [Ideal.ofBits, Ideal.ieee, -EReal.coe_mul]

/-! ## The moments of a real row -/

/-- A sum of images of reals is the image of the real sum. -/
theorem coe_sum' (f : Fin 1024 → ℝ) : (∑ k, ((f k : ℝ) : EReal)) = ((∑ k, f k : ℝ) : EReal) :=
  (ERealSums.coe_sum Finset.univ f).symm

/-- The mean from the separate sums of `t` and `s`. -/
def muR (t s : Fin 1024 → ℝ) : ℝ := (∑ k, t k + ∑ k, s k) * (1 / 1024)
/-- The second moment of `t + s` from the sums of `t²`, `s²` and `t·s`. -/
def e2R (t s : Fin 1024 → ℝ) : ℝ := ((∑ k, t k * t k + ∑ k, s k * s k) + 2 * ∑ k, t k * s k) * (1 / 1024)
/-- The mean of the row `t + s`. -/
def mR (t s : Fin 1024 → ℝ) : ℝ := (∑ k, (t k + s k)) * (1 / 1024)
/-- The mean of the squared deviations of the row `t + s`. -/
def varR (t s : Fin 1024 → ℝ) : ℝ := (∑ k, (t k + s k - mR t s) * (t k + s k - mR t s)) * (1 / 1024)

/-- `(Σt + Σs)/n = Σ(t+s)/n`. -/
theorem muR_eq_mR (t s : Fin 1024 → ℝ) : muR t s = mR t s := by
  rw [muR, mR, Finset.sum_add_distrib]

/-- `Σp²/n - μ² = Σ(p-μ)²/n` for `p = t + s`, `μ` its mean and `n = 1024` terms:
    `Σ(p-μ)² = Σp² - 2μΣp + nμ²` and `Σp = nμ`. -/
theorem e2R_sub_sq (t s : Fin 1024 → ℝ) : e2R t s - muR t s * muR t s = varR t s := by
  have h1 : ∀ (m : ℝ) (k : Fin 1024), (t k + s k - m) * (t k + s k - m)
      = (t k * t k + s k * s k + 2 * (t k * s k)) - 2 * m * (t k + s k) + m * m := fun m k => by ring
  rw [muR_eq_mR]
  simp only [varR, h1, Finset.sum_add_distrib, Finset.sum_sub_distrib, ← Finset.mul_sum, Finset.sum_const,
    Finset.card_univ, Fintype.card_fin, nsmul_eq_mul]
  simp only [e2R, mR, Finset.sum_add_distrib]
  push_cast
  ring

/-- The mean of squares is non-negative. -/
theorem varR_nonneg (t s : Fin 1024 → ℝ) : 0 ≤ varR t s :=
  mul_nonneg (Finset.sum_nonneg fun _ _ => mul_self_nonneg _) (by norm_num)

/-! ## Every piece of the two spellings is the image of a real -/

theorem kerMu_coe (t s : Fin 1024 → ℝ) :
    kerMu (fun k => ((t k : ℝ) : EReal)) (fun k => ((s k : ℝ) : EReal)) = ((muR t s : ℝ) : EReal) := by
  rw [kerMu, coe_sum', coe_sum', wInvN_eq, ← EReal.coe_add, ← EReal.coe_mul, muR]

theorem kerE2_coe (t s : Fin 1024 → ℝ) :
    kerE2 (fun k => ((t k : ℝ) : EReal)) (fun k => ((s k : ℝ) : EReal)) = ((e2R t s : ℝ) : EReal) := by
  rw [kerE2]
  simp only [← EReal.coe_mul]
  rw [coe_sum', coe_sum', coe_sum', wTwo_eq, wInvN_eq, ← EReal.coe_add, ← EReal.coe_mul, ← EReal.coe_add,
    ← EReal.coe_mul, e2R]

theorem refMean_coe (t s : Fin 1024 → ℝ) :
    refMean (fun k => ((t k : ℝ) : EReal) + ((s k : ℝ) : EReal)) = ((mR t s : ℝ) : EReal) := by
  rw [refMean]
  simp only [← EReal.coe_add]
  rw [coe_sum', wN_eq, Ideal.div_coe (by norm_num), ← EReal.coe_mul, mR]

theorem refVar_coe (t s : Fin 1024 → ℝ) :
    refVar (fun k => ((t k : ℝ) : EReal) + ((s k : ℝ) : EReal)) = ((varR t s : ℝ) : EReal) := by
  rw [refVar, refMean_coe]
  simp only [← EReal.coe_add, ← EReal.coe_sub, ← EReal.coe_mul]
  rw [coe_sum', wN_eq, Ideal.div_coe (by norm_num), ← EReal.coe_mul, varR]

/-! ## The two spellings agree on real rows -/

theorem kerRow_eq_refRow (t s : Fin 1024 → ℝ) (h : Fin 1024) :
    kerRow (fun k => ((t k : ℝ) : EReal)) (fun k => ((s k : ℝ) : EReal)) h
      = refRow (fun k => ((t k : ℝ) : EReal) + ((s k : ℝ) : EReal)) h := by
  obtain ⟨e, he, hE⟩ := wEps_pos
  have hpos : 0 < varR t s + e := by have := varR_nonneg t s; linarith
  -- the argument of the reciprocal square root, on the separated side, is the same positive real
  have hL : ((e2R t s : ℝ) : EReal) - ((muR t s : ℝ) : EReal) * ((muR t s : ℝ) : EReal) + (e : EReal)
      = ((varR t s + e : ℝ) : EReal) := by
    rw [← EReal.coe_mul, ← EReal.coe_sub, ← EReal.coe_add, e2R_sub_sq]
  rw [kerRow, kerR, refRow, kerMu_coe, kerE2_coe, refMean_coe, refVar_coe, hE, hL, ← EReal.coe_add (varR t s) e,
    Cert.AffineFold.rsqrt_pos _ hpos, muR_eq_mR]
  rw [← EReal.coe_add, ← EReal.coe_mul, ← EReal.coe_mul, ← EReal.coe_sub, ← EReal.coe_sub, ← EReal.coe_mul]
  congr 1
  ring

/-- On tables of real entries the separated form of the result is the textbook form. -/
theorem Gk_eq_G (x : SX.Idx → EReal) (T : ST.Idx → EReal) (S : SS.Idx → EReal) (g b : SV.Idx → EReal)
    (hT : ∀ j, ∃ r : ℝ, T j = (r : EReal)) (hS : ∀ j, ∃ r : ℝ, S j = (r : EReal)) : Gk x T S g b = G x T S g b := by
  choose T' hT' using hT
  choose S' hS' using hS
  funext i
  obtain ⟨a, u, r, h, rfl⟩ : ∃ (a : Fin 4) (u : Fin 1) (r : Fin 4096) (h : Fin 1024), i = ix4 a u r h :=
    ⟨i 0, i 1, i 2, i 3, eq_ix4 i⟩
  rw [Gk_apply, G_apply]
  have ht : tRow T r = fun k => ((T' (ix2 (⟨r.val / 16, by omega⟩ : Fin 256) k) : ℝ) : EReal) :=
    funext fun k => hT' _
  have hs : sRow S r = fun k => ((S' (ix2 (⟨r.val % 16, by omega⟩ : Fin 16) k) : ℝ) : EReal) :=
    funext fun k => hS' _
  have key := kerRow_eq_refRow (fun k => T' (ix2 (⟨r.val / 16, by omega⟩ : Fin 256) k))
    (fun k => S' (ix2 (⟨r.val % 16, by omega⟩ : Fin 16) k)) h
  rw [ht, hs, key]

end Cert.PosNorm

end
-- ==== Proof.Finite.lean ====
/-
  The finiteness of the two position tables, read back from the precondition.

  The precondition is the conjunction, over the five inputs, of "every entry `x` has `|x| < +∞`": each conjunct is
  a reduction by `and` of the lane-wise comparisons, and the conjunction is 1.  A conjunction of one-bit words is 1
  only if each is; a reduction by `and` into one result is 1 only if every lane is; and an extended real `x` with
  `max x (-x) < ⊤` is neither `⊤` nor `⊥`, so it is the image of a real number.
-/
import proofs.«100163_g22428319220377_cont_9to1_50_21_alg».proof.Pre_finite_inputs
import proofs.«100163_g22428319220377_cont_9to1_50_21_alg».proof.Proof.Gen.Pre_finite_inputs
import Idealize.ShloMosaic.Lib.ReduceAll
import Idealize.ShloMosaic.Lib.ValueIdx

noncomputable section

namespace Cert.PosNorm

open Idealize.ShloMosaic Idealize.ShloMosaic.ValueIdx
open Cert.Pre_finite_inputs Cert.Pre_finite_inputs.Gen

/-- The rank-0 shape has one index. -/
instance subsingleton_scalar_idx : Subsingleton S_.Idx := ⟨fun _ _ => funext fun d => d.elim0⟩

/-- The word `0x7F800000` denotes `+∞`: exponent field all ones, significand `0`, sign clear. -/
theorem ofBits_inf : Ideal.ofBits .f32 0x7F800000#32 = (⊤ : EReal) := by simp [Ideal.ofBits, Ideal.ieee]

/-- An extended real whose absolute value `max x (-x)` is below `+∞` is the image of a real. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- Under the precondition every entry of the temporal and of the spectral table is the image of a real. -/
theorem tables_real (a0 : FVec Ideal Cert.Pre_finite_inputs.S4x1x4096x1024 .f32)
    (a1 : FVec Ideal Cert.Pre_finite_inputs.S256x1024 .f32) (a2 : FVec Ideal Cert.Pre_finite_inputs.S16x1024 .f32)
    (a3 a4 : FVec Ideal Cert.Pre_finite_inputs.S1024 .f32)
    (h : Cert.Pre_finite_inputs.fn (F := Ideal) a0 a1 a2 a3 a4 = fun _ => 1#1) :
    (∀ j, ∃ r : ℝ, a1 j = (r : EReal)) ∧ (∀ j, ∃ r : ℝ, a2 j = (r : EReal)) := by
  have e := congrFun h ValueIdx.ix0
  dsimp only [Cert.Pre_finite_inputs.fn, Cert.Pre_finite_inputs.fn_part1] at e
  simp only [andi, IntOp.andi_eq_one] at e
  obtain ⟨⟨⟨⟨-, h1⟩, h2⟩, -⟩, -⟩ := e
  refine ⟨fun j => ?_, fun j => ?_⟩
  · exact real_of_abs_lt_inf (a1 j) (Host.reduce_andi_all _ _ _ _ _ h1 j)
  · exact real_of_abs_lt_inf (a2 j) (Host.reduce_andi_all _ _ _ _ _ h2 j)

end Cert.PosNorm

end
-- ==== Proof.RefRun.lean ====
/-
  The reference program's @main as one straight line of host operations, and what its result buffer holds after the line.

  @main calls the outlined variance function, which itself calls the outlined select; a call executes the callee's body
  on the operands, so the line is @main's operations with the variance function's twenty and the select's three in place
  of the call, each over the buffers of that call's record.  The result is stated as ONE pure function `refOut` of the
  five argument arrays, built from named stages (the two one-hot tables, the position rows, the column of means, the
  column of variances), for every float instance: at a generic instance the host sums and products are opaque, so the
  comparison of the line's fold with `refOut` never opens one.
-/
import proofs.«100163_g22428319220377_cont_9to1_50_21_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: twenty-eight of @main, the variance function's twenty over the
    record of its call, the select function's three over the record of the nested call, then @main's last sixteen. -/
abbrev ops : List (HloOp τ sig (Elt F)) :=
  [ StableHlo.nullary main_v0 (iotaInDim S256x16 32 0),
    StableHlo.nullary main_v1 (iotaInDim S256x16 32 1),
    StableHlo.reshape main_v0 main_v2 rfl shapeCasts_S256x16_S1x1x4096,
    StableHlo.reshape main_v1 main_v3 rfl shapeCasts_S256x16_S1x1x4096,
    StableHlo.nullary main_v4 (iotaInDim S256 32 0),
    StableHlo.unary main_v2 main_v5 (broadcastInDim S1x1x4096x1 ![0, 1, 2] bcast_S1x1x4096_S1x1x4096x1_0_1_2 : (⟨S1x1x4096, .i32⟩ : BufTy).Contents (Elt F) → (⟨S1x1x4096x1, .i32⟩ : BufTy).Contents (Elt F)),
    StableHlo.unary main_v4 main_v6 (broadcastInDim S1x1x1x256 ![3] bcast_S256_S1x1x1x256_3 : (⟨S256, .i32⟩ : BufTy).Contents (Elt F) → (⟨S1x1x1x256, .i32⟩ : BufTy).Contents (Elt F)),
    StableHlo.unary main_v5 main_v7 (broadcastInDim S1x1x4096x256 ![0, 1, 2, 3] bcast_S1x1x4096x1_S1x1x4096x256_0_1_2_3 : (⟨S1x1x4096x1, .i32⟩ : BufTy).Contents (Elt F) → (⟨S1x1x4096x256, .i32⟩ : BufTy).Contents (Elt F)),
    StableHlo.unary main_v6 main_v8 (broadcastInDim S1x1x4096x256 ![0, 1, 2, 3] bcast_S1x1x1x256_S1x1x4096x256_0_1_2_3 : (⟨S1x1x1x256, .i32⟩ : BufTy).Contents (Elt F) → (⟨S1x1x4096x256, .i32⟩ : BufTy).Contents (Elt F)),
    StableHlo.binary main_v7 main_v8 main_v9 (cmpi .eq : (⟨S1x1x4096x256, .i32⟩ : BufTy).Contents (Elt F) → (⟨S1x1x4096x256, .i32⟩ : BufTy).Contents (Elt F) → (⟨S1x1x4096x256, .i1⟩ : BufTy).Contents (Elt F)),
    StableHlo.unary main_v9 main_v10 (uitofp .f32 : (⟨S1x1x4096x256, .i1⟩ : BufTy).Contents (Elt F) → (⟨S1x1x4096x256, .f32⟩ : BufTy).Contents (Elt F)),
    StableHlo.binary main_v10 main_arg1 main_v11 ((fun l r => Host.dotGeneral dot_S1x1x4096x256_S256x1024_S1x1x4096x1024_3_0_012_1_n_n none l r) : (⟨S1x1x4096x256, .f32⟩ : BufTy).Contents (Elt F) → (⟨S256x1024, .f32⟩ : BufTy).Contents (Elt F) → (⟨S1x1x4096x1024, .f32⟩ : BufTy).Contents (Elt F)),
    StableHlo.nullary main_v12 (iotaInDim S16 32 0),
    StableHlo.unary main_v3 main_v13 (broadcastInDim S1x1x4096x1 ![0, 1, 2] bcast_S1x1x4096_S1x1x4096x1_0_1_2 : (⟨S1x1x4096, .i32⟩ : BufTy).Contents (Elt F) → (⟨S1x1x4096x1, .i32⟩ : BufTy).Contents (Elt F)),
    StableHlo.unary main_v12 main_v14 (broadcastInDim S1x1x1x16 ![3] bcast_S16_S1x1x1x16_3 : (⟨S16, .i32⟩ : BufTy).Contents (Elt F) → (⟨S1x1x1x16, .i32⟩ : BufTy).Contents (Elt F)),
    StableHlo.unary main_v13 main_v15 (broadcastInDim S1x1x4096x16 ![0, 1, 2, 3] bcast_S1x1x4096x1_S1x1x4096x16_0_1_2_3 : (⟨S1x1x4096x1, .i32⟩ : BufTy).Contents (Elt F) → (⟨S1x1x4096x16, .i32⟩ : BufTy).Contents (Elt F)),
    StableHlo.unary main_v14 main_v16 (broadcastInDim S1x1x4096x16 ![0, 1, 2, 3] bcast_S1x1x1x16_S1x1x4096x16_0_1_2_3 : (⟨S1x1x1x16, .i32⟩ : BufTy).Contents (Elt F) → (⟨S1x1x4096x16, .i32⟩ : BufTy).Contents (Elt F)),
    StableHlo.binary main_v15 main_v16 main_v17 (cmpi .eq : (⟨S1x1x4096x16, .i32⟩ : BufTy).Contents (Elt F) → (⟨S1x1x4096x16, .i32⟩ : BufTy).Contents (Elt F) → (⟨S1x1x4096x16, .i1⟩ : BufTy).Contents (Elt F)),
    StableHlo.unary main_v17 main_v18 (uitofp .f32 : (⟨S1x1x4096x16, .i1⟩ : BufTy).Contents (Elt F) → (⟨S1x1x4096x16, .f32⟩ : BufTy).Contents (Elt F)),
    StableHlo.binary main_v18 main_arg2 main_v19 ((fun l r => Host.dotGeneral dot_S1x1x4096x16_S16x1024_S1x1x4096x1024_3_0_012_1_n_n none l r) : (⟨S1x1x4096x16, .f32⟩ : BufTy).Contents (Elt F) → (⟨S16x1024, .f32⟩ : BufTy).Contents (Elt F) → (⟨S1x1x4096x1024, .f32⟩ : BufTy).Contents (Elt F)),
    StableHlo.binary main_v11 main_v19 main_v20 (addf : (⟨S1x1x4096x1024, .f32⟩ : BufTy).Contents (Elt F) → (⟨S1x1x4096x1024, .f32⟩ : BufTy).Contents (Elt F) → (⟨S1x1x4096x1024, .f32⟩ : BufTy).Contents (Elt F)),
    StableHlo.nullary main_cst (constant S_ .f32 0x00000000#32),
    StableHlo.binary main_v20 main_cst main_v21 ((fun x v => Host.reduceAdd x v reducesTo_S1x1x4096x1024_S1x1x4096_d3 h_S_) : (⟨S1x1x4096x1024, .f32⟩ : BufTy).Contents (Elt F) → (⟨S_, .f32⟩ : BufTy).Contents (Elt F) → (⟨S1x1x4096, .f32⟩ : BufTy).Contents (Elt F)),
    StableHlo.unary main_v21 main_v22 (broadcastInDim S1x1x4096x1 ![0, 1, 2] bcast_S1x1x4096_S1x1x4096x1_0_1_2 : (⟨S1x1x4096, .f32⟩ : BufTy).Contents (Elt F) → (⟨S1x1x4096x1, .f32⟩ : BufTy).Contents (Elt F)),
    StableHlo.nullary main_cst_0 (constant S_ .f32 0x44800000#32),
    StableHlo.unary main_cst_0 main_v23 (broadcastInDim S1x1x4096x1 ![] bcast_S_S1x1x4096x1 : (⟨S_, .f32⟩ : BufTy).Contents (Elt F) → (⟨S1x1x4096x1, .f32⟩ : BufTy).Contents (Elt F)),
    StableHlo.binary main_v22 main_v23 main_v24 (Host.divf : (⟨S1x1x4096x1, .f32⟩ : BufTy).Contents (Elt F) → (⟨S1x1x4096x1, .f32⟩ : BufTy).Contents (Elt F) → (⟨S1x1x4096x1, .f32⟩ : BufTy).Contents (Elt F)),
    StableHlo.nullary main_c (constantI S_ 32 0#32),
    StableHlo.TRef.nullary main_call0.cst (constant S_ .f32 0x00000000#32),
    StableHlo.TRef.binary (.of main_v20 : TRef sig ⟨S1x1x4096x1024, .f32⟩) main_call0.cst main_call0.v0 (fun x v => Host.reduceAdd x v reducesTo_S1x1x4096x1024_S1x1x4096_d3 h_S_),
    StableHlo.TRef.unary main_call0.v0 main_call0.v1 (broadcastInDim S1x1x4096x1 ![0, 1, 2] bcast_S1x1x4096_S1x1x4096x1_0_1_2),
    StableHlo.TRef.nullary main_call0.cst_0 (constant S_ .f32 0x44800000#32),
    StableHlo.TRef.unary main_call0.cst_0 main_call0.v2 (broadcastInDim S1x1x4096x1 ![] bcast_S_S1x1x4096x1),
    StableHlo.TRef.binary main_call0.v1 main_call0.v2 main_call0.v3 Host.divf,
    StableHlo.TRef.unary main_call0.v3 main_call0.v4 (broadcastInDim S1x1x4096x1024 ![0, 1, 2, 3] bcast_S1x1x4096x1_S1x1x4096x1024_0_1_2_3),
    StableHlo.TRef.binary (.of main_v20 : TRef sig ⟨S1x1x4096x1024, .f32⟩) main_call0.v4 main_call0.v5 subf,
    StableHlo.TRef.binary main_call0.v5 main_call0.v5 main_call0.v6 mulf,
    StableHlo.TRef.unary (.of main_c : TRef sig ⟨S_, .i32⟩) main_call0.v7 (sitofp .f32),
    StableHlo.TRef.nullary main_call0.cst_1 (constant S_ .f32 0x44800000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S1x1x4096x1024_S1x1x4096_d3 h_S_),
    StableHlo.TRef.unary main_call0.v9 main_call0.v10 (broadcastInDim S1x1x4096x1 ![0, 1, 2] bcast_S1x1x4096_S1x1x4096x1_0_1_2),
    StableHlo.TRef.unary main_call0.v8 main_call0.v11 (broadcastInDim S1x1x4096x1 ![] bcast_S_S1x1x4096x1),
    StableHlo.TRef.binary main_call0.v10 main_call0.v11 main_call0.v12 Host.divf,
    StableHlo.TRef.nullary main_call0.cst_3 (constant S_ .f32 0x00000000#32),
    StableHlo.TRef.binary main_call0.v8 main_call0.cst_3 main_call0.v13 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S1x1x4096x1 ![] bcast_S_S1x1x4096x1),
    StableHlo.TRef.ternary main_call0.v13 main_call0.v12 main_call0.call0.v1 main_call0.call0.v2 (fun p a b => select (broadcastInDim S1x1x4096x1 ![] bcast_S_S1x1x4096x1 p) a b),
    StableHlo.unary main_v24 main_v26 (broadcastInDim S1x1x4096x1024 ![0, 1, 2, 3] bcast_S1x1x4096x1_S1x1x4096x1024_0_1_2_3 : (⟨S1x1x4096x1, .f32⟩ : BufTy).Contents (Elt F) → (⟨S1x1x4096x1024, .f32⟩ : BufTy).Contents (Elt F)),
    StableHlo.binary main_v20 main_v26 main_v27 (subf : (⟨S1x1x4096x1024, .f32⟩ : BufTy).Contents (Elt F) → (⟨S1x1x4096x1024, .f32⟩ : BufTy).Contents (Elt F) → (⟨S1x1x4096x1024, .f32⟩ : BufTy).Contents (Elt F)),
    StableHlo.nullary main_cst_1 (constant S_ .f32 0x358637BD#32),
    StableHlo.unary main_cst_1 main_v28 (broadcastInDim S1x1x4096x1 ![] bcast_S_S1x1x4096x1 : (⟨S_, .f32⟩ : BufTy).Contents (Elt F) → (⟨S1x1x4096x1, .f32⟩ : BufTy).Contents (Elt F)),
    StableHlo.binary main_v25 main_v28 main_v29 (addf : (⟨S1x1x4096x1, .f32⟩ : BufTy).Contents (Elt F) → (⟨S1x1x4096x1, .f32⟩ : BufTy).Contents (Elt F) → (⟨S1x1x4096x1, .f32⟩ : BufTy).Contents (Elt F)),
    StableHlo.unary main_v29 main_v30 (Host.rsqrt : (⟨S1x1x4096x1, .f32⟩ : BufTy).Contents (Elt F) → (⟨S1x1x4096x1, .f32⟩ : BufTy).Contents (Elt F)),
    StableHlo.unary main_v30 main_v31 (broadcastInDim S1x1x4096x1024 ![0, 1, 2, 3] bcast_S1x1x4096x1_S1x1x4096x1024_0_1_2_3 : (⟨S1x1x4096x1, .f32⟩ : BufTy).Contents (Elt F) → (⟨S1x1x4096x1024, .f32⟩ : BufTy).Contents (Elt F)),
    StableHlo.binary main_v27 main_v31 main_v32 (mulf : (⟨S1x1x4096x1024, .f32⟩ : BufTy).Contents (Elt F) → (⟨S1x1x4096x1024, .f32⟩ : BufTy).Contents (Elt F) → (⟨S1x1x4096x1024, .f32⟩ : BufTy).Contents (Elt F)),
    StableHlo.unary main_arg3 main_v33 (broadcastInDim S1x1x1x1024 ![3] bcast_S1024_S1x1x1x1024_3 : (⟨S1024, .f32⟩ : BufTy).Contents (Elt F) → (⟨S1x1x1x1024, .f32⟩ : BufTy).Contents (Elt F)),
    StableHlo.unary main_v33 main_v34 (broadcastInDim S1x1x4096x1024 ![0, 1, 2, 3] bcast_S1x1x1x1024_S1x1x4096x1024_0_1_2_3 : (⟨S1x1x1x1024, .f32⟩ : BufTy).Contents (Elt F) → (⟨S1x1x4096x1024, .f32⟩ : BufTy).Contents (Elt F)),
    StableHlo.binary main_v32 main_v34 main_v35 (mulf : (⟨S1x1x4096x1024, .f32⟩ : BufTy).Contents (Elt F) → (⟨S1x1x4096x1024, .f32⟩ : BufTy).Contents (Elt F) → (⟨S1x1x4096x1024, .f32⟩ : BufTy).Contents (Elt F)),
    StableHlo.unary main_arg4 main_v36 (broadcastInDim S1x1x1x1024 ![3] bcast_S1024_S1x1x1x1024_3 : (⟨S1024, .f32⟩ : BufTy).Contents (Elt F) → (⟨S1x1x1x1024, .f32⟩ : BufTy).Contents (Elt F)),
    StableHlo.unary main_v36 main_v37 (broadcastInDim S1x1x4096x1024 ![0, 1, 2, 3] bcast_S1x1x1x1024_S1x1x4096x1024_0_1_2_3 : (⟨S1x1x1x1024, .f32⟩ : BufTy).Contents (Elt F) → (⟨S1x1x4096x1024, .f32⟩ : BufTy).Contents (Elt F)),
    StableHlo.binary main_v35 main_v37 main_v38 (addf : (⟨S1x1x4096x1024, .f32⟩ : BufTy).Contents (Elt F) → (⟨S1x1x4096x1024, .f32⟩ : BufTy).Contents (Elt F) → (⟨S1x1x4096x1024, .f32⟩ : BufTy).Contents (Elt F)),
    StableHlo.unary main_v38 main_v39 (broadcastInDim S4x1x4096x1024 ![0, 1, 2, 3] bcast_S1x1x4096x1024_S4x1x4096x1024_0_1_2_3 : (⟨S1x1x4096x1024, .f32⟩ : BufTy).Contents (Elt F) → (⟨S4x1x4096x1024, .f32⟩ : BufTy).Contents (Elt F)),
    StableHlo.binary main_arg0 main_v39 main_v40 (addf : (⟨S4x1x4096x1024, .f32⟩ : BufTy).Contents (Elt F) → (⟨S4x1x4096x1024, .f32⟩ : BufTy).Contents (Elt F) → (⟨S4x1x4096x1024, .f32⟩ : BufTy).Contents (Elt F)) ]

-- sixty-seven binds re-associated: the rewrite under the chain recurses once per statement
set_option maxRecDepth 2048 in
/-- @main is that straight line: the two functions' definitions unfolded at their calls, both sides are one chain of
    steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., reshape_bufs_sub .., reshape_bufs_sub .., nullary_bufs_sub .., unary_bufs_sub ..,
    unary_bufs_sub .., unary_bufs_sub .., unary_bufs_sub .., binary_bufs_sub .., unary_bufs_sub .., binary_bufs_sub ..,
    nullary_bufs_sub .., unary_bufs_sub .., unary_bufs_sub .., unary_bufs_sub .., unary_bufs_sub .., binary_bufs_sub ..,
    unary_bufs_sub .., binary_bufs_sub .., binary_bufs_sub .., nullary_bufs_sub .., binary_bufs_sub .., unary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., unary_bufs_sub .., binary_bufs_sub .., nullary_bufs_sub .., binary_bufs_sub .., nullary_bufs_sub ..,
    unary_bufs_sub .., unary_bufs_sub .., ternary_bufs_sub .., unary_bufs_sub .., binary_bufs_sub .., nullary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    binary_bufs_sub ..⟩

/-- From any memory with zero counters every weakly fair execution of @main terminates, and every buffer ends at the
    fold of the line over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefValue

end
-- ==== Proof.RefStages.lean ====
/-
  The reference's result as a pure function of its five argument arrays, in named stages, for every float instance.

  Token `r` of the 4096 is the pair (temporal index `r / 16`, spectral index `r % 16`): the two index arrays are the
  iotas of a [256, 16] grid along its two axes, flattened.  A one-hot table compares a token's index with the table's row
  number; the product of the one-hot table with the embedding table picks the token's row.  The position row is the sum of
  the temporal and spectral rows; it is normalised over its 1024 lanes (mean, variance with the count `1024 - 0` and the
  guard `count > 0` selecting the variance over the not-a-number word), scaled and shifted lane by lane, and added to every
  batch entry of the input.
-/
import proofs.«100163_g22428319220377_cont_9to1_50_21_alg».proof.Proof.Gen.ReferenceIdeal

noncomputable section

namespace Cert.ReferenceIdeal.RefValue

open Cert.ReferenceIdeal Cert.ReferenceIdeal.Gen Idealize.ShloMosaic

variable {F : FTy → Type} [FloatOps F]

/-- The temporal index of every token, as a column: the [256, 16] iota along axis 0, flattened to 4096 tokens. -/
def idxT : IVec S1x1x4096x1 32 :=
  broadcastInDim S1x1x4096x1 ![0, 1, 2] bcast_S1x1x4096_S1x1x4096x1_0_1_2
    (shapeCast S1x1x4096 (iotaInDim S256x16 32 0) shapeCasts_S256x16_S1x1x4096)

/-- The spectral index of every token, as a column: the [256, 16] iota along axis 1, flattened. -/
def idxS : IVec S1x1x4096x1 32 :=
  broadcastInDim S1x1x4096x1 ![0, 1, 2] bcast_S1x1x4096_S1x1x4096x1_0_1_2
    (shapeCast S1x1x4096 (iotaInDim S256x16 32 1) shapeCasts_S256x16_S1x1x4096)

/-- The temporal one-hot table: entry (r, k) is one where token r's temporal index is k. -/
def hotT : FVec F S1x1x4096x256 .f32 :=
  uitofp .f32 (cmpi .eq
    (broadcastInDim S1x1x4096x256 ![0, 1, 2, 3] bcast_S1x1x4096x1_S1x1x4096x256_0_1_2_3 idxT)
    (broadcastInDim S1x1x4096x256 ![0, 1, 2, 3] bcast_S1x1x1x256_S1x1x4096x256_0_1_2_3
      (broadcastInDim S1x1x1x256 ![3] bcast_S256_S1x1x1x256_3 (iotaInDim S256 32 0))))

/-- The spectral one-hot table: entry (r, k) is one where token r's spectral index is k. -/
def hotS : FVec F S1x1x4096x16 .f32 :=
  uitofp .f32 (cmpi .eq
    (broadcastInDim S1x1x4096x16 ![0, 1, 2, 3] bcast_S1x1x4096x1_S1x1x4096x16_0_1_2_3 idxS)
    (broadcastInDim S1x1x4096x16 ![0, 1, 2, 3] bcast_S1x1x1x16_S1x1x4096x16_0_1_2_3
      (broadcastInDim S1x1x1x16 ![3] bcast_S16_S1x1x1x16_3 (iotaInDim S16 32 0))))

/-- The position rows: the one-hot tables times the embedding tables, added. -/
def pos (T : FVec F S256x1024 .f32) (S : FVec F S16x1024 .f32) : FVec F S1x1x4096x1024 .f32 :=
  addf (Host.dotGeneral dot_S1x1x4096x256_S256x1024_S1x1x4096x1024_3_0_012_1_n_n none hotT T)
    (Host.dotGeneral dot_S1x1x4096x16_S16x1024_S1x1x4096x1024_3_0_012_1_n_n none hotS S)

/-- A column of 4096 values spread over the 1024 lanes. -/
abbrev spread {α : Type} (v : S1x1x4096x1.Idx → α) : S1x1x4096x1024.Idx → α :=
  broadcastInDim S1x1x4096x1024 ![0, 1, 2, 3] bcast_S1x1x4096x1_S1x1x4096x1024_0_1_2_3 v

/-- A scalar as a column of 4096 equal values. -/
abbrev column {α : Type} (v : S_.Idx → α) : S1x1x4096x1.Idx → α :=
  broadcastInDim S1x1x4096x1 ![] bcast_S_S1x1x4096x1 v

/-- The lane sums of the rows, from the zero word, kept as a column. -/
def sumCol (p : FVec F S1x1x4096x1024 .f32) : FVec F S1x1x4096x1 .f32 :=
  broadcastInDim S1x1x4096x1 ![0, 1, 2] bcast_S1x1x4096_S1x1x4096x1_0_1_2
    (Host.reduceAdd p (constant S_ .f32 0x00000000#32) reducesTo_S1x1x4096x1024_S1x1x4096_d3 h_S_)

/-- The column of row means: the lane sums divided by the word 1024. -/
def meanCol (p : FVec F S1x1x4096x1024 .f32) : FVec F S1x1x4096x1 .f32 :=
  Host.divf (sumCol p) (column (constant S_ .f32 0x44800000#32))

/-- The count the variance divides by: the word 1024 less the converted integer zero. -/
def count : FVec F S_ .f32 :=
  subf (constant S_ .f32 0x44800000#32) (sitofp .f32 (constantI S_ 32 0#32))

/-- The deviations of the rows from their means. -/
def dev (p : FVec F S1x1x4096x1024 .f32) : FVec F S1x1x4096x1024 .f32 := subf p (spread (meanCol p))

/-- The column of row variances: the summed squared deviations over the count where the count is positive, the
    not-a-number word elsewhere. -/
def varCol (p : FVec F S1x1x4096x1024 .f32) : FVec F S1x1x4096x1 .f32 :=
  select (column (cmpf .ogt (count (F := F)) (constant S_ .f32 0x00000000#32)))
    (Host.divf (sumCol (mulf (dev p) (dev p))) (column count))
    (column (constant S_ .f32 0x7FC00000#32))

/-- A lane vector spread over the 4096 rows. -/
abbrev lanes {α : Type} (v : S1024.Idx → α) : S1x1x4096x1024.Idx → α :=
  broadcastInDim S1x1x4096x1024 ![0, 1, 2, 3] bcast_S1x1x1x1024_S1x1x4096x1024_0_1_2_3
    (broadcastInDim S1x1x1x1024 ![3] bcast_S1024_S1x1x1x1024_3 v)

/-- The normalised, scaled and shifted position rows. -/
def normed (p : FVec F S1x1x4096x1024 .f32) (g b : FVec F S1024 .f32) : FVec F S1x1x4096x1024 .f32 :=
  addf (mulf (mulf (subf p (spread (meanCol p)))
      (spread (Host.rsqrt (addf (varCol p) (column (constant S_ .f32 0x358637BD#32)))))) (lanes g)) (lanes b)

/-- The reference's result: the input plus the normalised position rows, the same for every batch entry. -/
def refOut (x : FVec F S4x1x4096x1024 .f32) (T : FVec F S256x1024 .f32) (S : FVec F S16x1024 .f32) (g b : FVec F S1024 .f32) :
    FVec F S4x1x4096x1024 .f32 :=
  addf x (broadcastInDim S4x1x4096x1024 ![0, 1, 2, 3] bcast_S1x1x4096x1024_S4x1x4096x1024_0_1_2_3 (normed (pos T S) g b))

end Cert.ReferenceIdeal.RefValue

end
-- ==== Proof.RefOut.lean ====
/-
  What the reference's result buffer holds after the line: the pure function `refOut` of the launch contents of the five
  argument buffers, which the line leaves as they were.  For every float instance: the fold of the line at the result
  buffer is each operation's function applied to its operands' contents, and that composed term is `refOut` unfolded.
-/
import proofs.«100163_g22428319220377_cont_9to1_50_21_alg».proof.Proof.RefRun
import proofs.«100163_g22428319220377_cont_9to1_50_21_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 1600000 in
/-- The fold at the result buffer is `refOut` of the contents of the argument buffers. -/
theorem out_eq (V : Valuation τ sig (Elt F)) :
    after ops V (main_v40 : DevRef τ sig)
      = refOut (V (main_arg0 : DevRef τ sig)) (V (main_arg1 : DevRef τ sig)) (V (main_arg2 : DevRef τ sig))
          (V (main_arg3 : DevRef τ sig)) (V (main_arg4 : DevRef τ sig)) := by
  after_results_simp
  rfl

/-- The line writes none of the five argument buffers. -/
theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp

/-- On every device, for any float values, from any memory with zero counters: every weakly fair execution of @main
    terminates with the result buffer at `refOut` of the arguments' launch contents and the arguments unchanged. -/
theorem run_refOut (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v40)
          = refOut (m ((c.tc : Thread nD τ).loc main_arg0)) (m ((c.tc : Thread nD τ).loc main_arg1))
              (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v40).trans (out_eq _), (h c main_arg0).trans (arg0_eq _),
      (h c main_arg1).trans (arg1_eq _), (h c main_arg2).trans (arg2_eq _), (h c main_arg3).trans (arg3_eq _),
      (h c main_arg4).trans (arg4_eq _)⟩)
    (run_main m ρ)

end Cert.ReferenceIdeal.RefValue

end
-- ==== Proof.RefLayout.lean ====
/-
  The host's layout operations on rank-4 arrays, read at an index given by its coordinates (any element type).

  A broadcast_in_dim that keeps the four axes in place reads, at (p0, p1, p2, p3), the operand at the same coordinates
  on the operand's axes that are not unit axes and at 0 on its unit axes.  A vector placed on the last axis of a
  [1, 1, 1, n] array, a rank-3 array given a trailing unit axis, and the flattening of a [m, n] grid to [1, 1, m * n]
  are read the same way: a cast keeps the row-major position.
-/
import Idealize.ShloMosaic.Lib.Pipeline.Value
import Idealize.ShloMosaic.Lib.ValueIdx

namespace Cert.ReferenceIdeal.RefValue

open Idealize.ShloMosaic Idealize.ShloMosaic.ValueIdx

variable {α : Type}

/-- A broadcast between rank-4 shapes with the axes in place: the operand is read at any coordinates that agree with the
    result's on its non-unit axes and are 0 on its unit axes. -/
theorem inDim4_apply {s0 s1 s2 s3 t0 t1 t2 t3 : ℕ}
    (h : (⟨4, ![s0, s1, s2, s3]⟩ : Shape).BroadcastsInDim ⟨4, ![t0, t1, t2, t3]⟩ (![0, 1, 2, 3] : Fin 4 → Fin 4))
    (x : (⟨4, ![s0, s1, s2, s3]⟩ : Shape).Idx → α)
    (p0 : Fin t0) (p1 : Fin t1) (p2 : Fin t2) (p3 : Fin t3) (k0 : Fin s0) (k1 : Fin s1) (k2 : Fin s2) (k3 : Fin s3)
    (e0 : k0.val = if s0 = 1 then 0 else p0.val) (e1 : k1.val = if s1 = 1 then 0 else p1.val)
    (e2 : k2.val = if s2 = 1 then 0 else p2.val) (e3 : k3.val = if s3 = 1 then 0 else p3.val) :
    broadcastInDim ⟨4, ![t0, t1, t2, t3]⟩ ![0, 1, 2, 3] h x (ix4 p0 p1 p2 p3) = x (ix4 k0 k1 k2 k3) :=
  broadcastInDim_apply _ h x _ _ (fun e => by
    match e with
    | ⟨0, _⟩ => exact e0
    | ⟨1, _⟩ => exact e1
    | ⟨2, _⟩ => exact e2
    | ⟨3, _⟩ => exact e3)

/-- A vector [n] placed on the last axis of [1, 1, 1, n]: entry (a, b, c, k) is entry k. -/
theorem inDim_lane_apply {n : ℕ} (h : (⟨1, ![n]⟩ : Shape).BroadcastsInDim ⟨4, ![1, 1, 1, n]⟩ (![3] : Fin 1 → Fin 4))
    (x : (⟨1, ![n]⟩ : Shape).Idx → α) (a b c : Fin 1) (k : Fin n) :
    broadcastInDim ⟨4, ![1, 1, 1, n]⟩ ![3] h x (ix4 a b c k) = x (ix1 k) :=
  broadcastInDim_apply _ h x _ _ (fun e => by
    match e with
    | ⟨0, _⟩ =>
      show k.val = if n = 1 then 0 else k.val
      split_ifs with h1
      · have := k.isLt; omega
      · rfl)

/-- A rank-3 array [a, b, c] given a trailing unit axis: entry (p, q, r, u) is entry (p, q, r). -/
theorem inDim_keep_apply {a b c : ℕ}
    (h : (⟨3, ![a, b, c]⟩ : Shape).BroadcastsInDim ⟨4, ![a, b, c, 1]⟩ (![0, 1, 2] : Fin 3 → Fin 4))
    (x : (⟨3, ![a, b, c]⟩ : Shape).Idx → α) (p : Fin a) (q : Fin b) (r : Fin c) (u : Fin 1) :
    broadcastInDim ⟨4, ![a, b, c, 1]⟩ ![0, 1, 2] h x (ix4 p q r u) = x (ix3 p q r) :=
  broadcastInDim_apply _ h x _ _ (fun e => by
    match e with
    | ⟨0, _⟩ =>
      show p.val = if a = 1 then 0 else p.val
      split_ifs with h1
      · have := p.isLt; omega
      · rfl
    | ⟨1, _⟩ =>
      show q.val = if b = 1 then 0 else q.val
      split_ifs with h1
      · have := q.isLt; omega
      · rfl
    | ⟨2, _⟩ =>
      show r.val = if c = 1 then 0 else r.val
      split_ifs with h1
      · have := r.isLt; omega
      · rfl)

/-- A grid [m, n] flattened to [1, 1, m * n] positions: position r is the grid's entry (r / n, r % n). -/
theorem flatten_grid_apply {m n mn : ℕ} (h : (⟨2, ![m, n]⟩ : Shape).ShapeCasts ⟨3, ![1, 1, mn]⟩)
    (x : (⟨2, ![m, n]⟩ : Shape).Idx → α) (a b : Fin 1) (r : Fin mn) (p : Fin m) (q : Fin n)
    (hr : p.val * n + q.val = r.val) :
    shapeCast ⟨3, ![1, 1, mn]⟩ x h (ix3 a b r) = x (ix2 p q) :=
  shapeCast_apply x h _ _ (by
    have ha : a.val = 0 := by omega
    have hb : b.val = 0 := by omega
    rw [Shape.rowMajor_val_two, Shape.rowMajor_val_three]
    show p.val * n + q.val = (a.val * 1 + b.val) * mn + r.val
    rw [ha, hb, hr]; omega)

end Cert.ReferenceIdeal.RefValue
-- ==== Proof.RefDot.lean ====
/-
  The host's product of a [1, 1, R, K] array with a [K, N] table — contracting the array's last axis with the table's
  first, no batch axis — read at an index, at the ideal values: entry (a, u, r, h) is the sum over the contracted
  coordinate c of the array's entry (a, u, r, c) times the table's entry (c, h).
-/
import Idealize.ShloMosaic.PureOps.Ideal.Laws
import Idealize.ShloMosaic.Lib.ValueIdx

noncomputable section

namespace Cert.ReferenceIdeal.RefValue

open Idealize.ShloMosaic Idealize.ShloMosaic.ValueIdx

theorem dot_rows_apply {R K N : ℕ} {φ₁ φ₂ : FTy}
    (w : DotDims.WF ⟨4, ![1, 1, R, K]⟩ ⟨2, ![K, N]⟩ ⟨4, ![1, 1, R, N]⟩ [3] [0] [0, 1, 2] [1] [] [])
    (prec : Option ContractPrecision) (A : FVec Ideal ⟨4, ![1, 1, R, K]⟩ φ₁) (B : FVec Ideal ⟨2, ![K, N]⟩ φ₂)
    (a u : Fin 1) (r : Fin R) (h : Fin N) :
    Host.dotGeneral (⟨[3], [0], [0, 1, 2], [1], [], [], w⟩ : DotDims _ _ _) prec A B (ix4 a u r h)
      = ∑ c : Fin K, A (ix4 a u r c) * B (ix2 c h) := by
  show FloatOps.dotGeneral _ prec _ A B (ix4 a u r h) = _
  rw [Ideal.dotGeneral_apply,
    ← Equiv.sum_comp (contrEquiv1 (⟨[3], [0], [0, 1, 2], [1], [], [], w⟩ : DotDims _ _ _) K rfl rfl).symm]
  refine Finset.sum_congr rfl fun c _ => ?_
  have c1 := contrEquiv1_symm_val
    (⟨[3], [0], [0, 1, 2], [1], [], [], w⟩ : DotDims ⟨4, ![1, 1, R, K]⟩ ⟨2, ![K, N]⟩ ⟨4, ![1, 1, R, N]⟩) K rfl rfl c
  have l4 : (⟨[3], [0], [0, 1, 2], [1], [], [], w⟩ : DotDims ⟨4, ![1, 1, R, K]⟩ ⟨2, ![K, N]⟩ ⟨4, ![1, 1, R, N]⟩).lhsIdx
      (ix4 a u r h) ((contrEquiv1 _ K rfl rfl).symm c) = ix4 a u r c := by
    funext ax; apply Fin.ext
    match ax with
    | ⟨0, _⟩ => simp [DotDims.lhsIdx]
    | ⟨1, _⟩ => simp [DotDims.lhsIdx]
    | ⟨2, _⟩ => simp [DotDims.lhsIdx]; rfl
    | ⟨3, _⟩ => simp [DotDims.lhsIdx]; exact c1
  have r2 : (⟨[3], [0], [0, 1, 2], [1], [], [], w⟩ : DotDims ⟨4, ![1, 1, R, K]⟩ ⟨2, ![K, N]⟩ ⟨4, ![1, 1, R, N]⟩).rhsIdx
      (ix4 a u r h) ((contrEquiv1 _ K rfl rfl).symm c) = ix2 c h := by
    funext ax; apply Fin.ext
    match ax with
    | ⟨0, _⟩ => simp [DotDims.rhsIdx]; exact c1
    | ⟨1, _⟩ => simp [DotDims.rhsIdx]; rfl
  rw [l4, r2]

end Cert.ReferenceIdeal.RefValue

end
-- ==== Proof.RefRows.lean ====
/-
  The position rows of the reference, read at an index, at the ideal values.

  Token r's temporal index is r / 16 and its spectral index is r % 16 (the two iotas of the [256, 16] grid, flattened).
  A one-hot table's entry (r, c) is the comparison "the token's index is c" converted to a float: one where it holds,
  zero elsewhere.  The product of a one-hot table with an embedding table is therefore a sum with one nonzero term,
  the token's row of the table; the position row is the temporal row plus the spectral row.
-/
import Mathlib.Tactic
import Idealize.ShloMosaic.Lib.IdealHost
import proofs.«100163_g22428319220377_cont_9to1_50_21_alg».proof.Proof.Spec
import proofs.«100163_g22428319220377_cont_9to1_50_21_alg».proof.Proof.RefStages
import proofs.«100163_g22428319220377_cont_9to1_50_21_alg».proof.Proof.RefLayout
import proofs.«100163_g22428319220377_cont_9to1_50_21_alg».proof.Proof.RefDot

noncomputable section

namespace Cert.ReferenceIdeal.RefValue

open Cert.ReferenceIdeal Cert.ReferenceIdeal.Gen Idealize.ShloMosaic Idealize.ShloMosaic.ValueIdx

/-- The comparison of two small numbers as words, converted to a float: one where they are equal, zero elsewhere. -/
theorem hot_word (m n : ℕ) (hm : m < 2 ^ 32) (hn : n < 2 ^ 32) :
    (FloatOps.uitofp (F := Ideal) .f32 (IntOp.cmpi .eq (BitVec.ofNat 32 m) (BitVec.ofNat 32 n)) : EReal)
      = if n = m then 1 else 0 := by
  show (((IntOp.cmpi .eq (BitVec.ofNat 32 m) (BitVec.ofNat 32 n)).toNat : ℝ) : EReal) = _
  unfold IntOp.cmpi
  by_cases h : n = m
  · subst h; simp
  · rw [if_neg h]
    have : (BitVec.ofNat 32 m == BitVec.ofNat 32 n) = false := by
      rw [beq_eq_false_iff_ne]
      intro e
      have := congrArg BitVec.toNat e
      simp only [BitVec.toNat_ofNat] at this
      rw [Nat.mod_eq_of_lt hm, Nat.mod_eq_of_lt hn] at this
      exact h this.symm
    simp [this]

/-- Token r's temporal index is r / 16. -/
theorem idxT_apply (a u : Fin 1) (r : Fin 4096) (w : Fin 1) : idxT (ix4 a u r w) = BitVec.ofNat 32 (r.val / 16) :=
  (inDim_keep_apply bcast_S1x1x4096_S1x1x4096x1_0_1_2 _ a u r w).trans
    (flatten_grid_apply shapeCasts_S256x16_S1x1x4096 (iotaInDim S256x16 32 0) a u r
      (⟨r.val / 16, by omega⟩ : Fin 256) (⟨r.val % 16, by omega⟩ : Fin 16) (by show r.val / 16 * 16 + r.val % 16 = r.val; omega))

/-- Token r's spectral index is r % 16. -/
theorem idxS_apply (a u : Fin 1) (r : Fin 4096) (w : Fin 1) : idxS (ix4 a u r w) = BitVec.ofNat 32 (r.val % 16) :=
  (inDim_keep_apply bcast_S1x1x4096_S1x1x4096x1_0_1_2 _ a u r w).trans
    (flatten_grid_apply shapeCasts_S256x16_S1x1x4096 (iotaInDim S256x16 32 1) a u r
      (⟨r.val / 16, by omega⟩ : Fin 256) (⟨r.val % 16, by omega⟩ : Fin 16) (by show r.val / 16 * 16 + r.val % 16 = r.val; omega))

/-- The temporal one-hot table at (r, c): one where c is the token's temporal index. -/
theorem hotT_apply (a u : Fin 1) (r : Fin 4096) (c : Fin 256) :
    hotT (F := Ideal) (ix4 a u r c) = if c.val = r.val / 16 then 1 else 0 := by
  have hX : broadcastInDim S1x1x4096x256 ![0, 1, 2, 3] bcast_S1x1x4096x1_S1x1x4096x256_0_1_2_3 idxT (ix4 a u r c)
      = BitVec.ofNat 32 (r.val / 16) :=
    (inDim4_apply bcast_S1x1x4096x1_S1x1x4096x256_0_1_2_3 idxT a u r c (0 : Fin 1) (0 : Fin 1) r (0 : Fin 1) rfl rfl rfl rfl).trans
      (idxT_apply 0 0 r 0)
  have hY : broadcastInDim S1x1x4096x256 ![0, 1, 2, 3] bcast_S1x1x1x256_S1x1x4096x256_0_1_2_3
        (broadcastInDim S1x1x1x256 ![3] bcast_S256_S1x1x1x256_3 (iotaInDim S256 32 0)) (ix4 a u r c)
      = BitVec.ofNat 32 c.val :=
    (inDim4_apply bcast_S1x1x1x256_S1x1x4096x256_0_1_2_3 _ a u r c (0 : Fin 1) (0 : Fin 1) (0 : Fin 1) c rfl rfl rfl rfl).trans
      (inDim_lane_apply bcast_S256_S1x1x1x256_3 (iotaInDim S256 32 0) 0 0 0 c)
  show FloatOps.uitofp (F := Ideal) .f32 (IntOp.cmpi .eq
      (broadcastInDim S1x1x4096x256 ![0, 1, 2, 3] bcast_S1x1x4096x1_S1x1x4096x256_0_1_2_3 idxT (ix4 a u r c))
      (broadcastInDim S1x1x4096x256 ![0, 1, 2, 3] bcast_S1x1x1x256_S1x1x4096x256_0_1_2_3
        (broadcastInDim S1x1x1x256 ![3] bcast_S256_S1x1x1x256_3 (iotaInDim S256 32 0)) (ix4 a u r c))) = _
  rw [hX, hY]
  exact hot_word _ _ (by have := r.isLt; omega) (by have := c.isLt; omega)

/-- The spectral one-hot table at (r, c): one where c is the token's spectral index. -/
theorem hotS_apply (a u : Fin 1) (r : Fin 4096) (c : Fin 16) :
    hotS (F := Ideal) (ix4 a u r c) = if c.val = r.val % 16 then 1 else 0 := by
  have hX : broadcastInDim S1x1x4096x16 ![0, 1, 2, 3] bcast_S1x1x4096x1_S1x1x4096x16_0_1_2_3 idxS (ix4 a u r c)
      = BitVec.ofNat 32 (r.val % 16) :=
    (inDim4_apply bcast_S1x1x4096x1_S1x1x4096x16_0_1_2_3 idxS a u r c (0 : Fin 1) (0 : Fin 1) r (0 : Fin 1) rfl rfl rfl rfl).trans
      (idxS_apply 0 0 r 0)
  have hY : broadcastInDim S1x1x4096x16 ![0, 1, 2, 3] bcast_S1x1x1x16_S1x1x4096x16_0_1_2_3
        (broadcastInDim S1x1x1x16 ![3] bcast_S16_S1x1x1x16_3 (iotaInDim S16 32 0)) (ix4 a u r c)
      = BitVec.ofNat 32 c.val :=
    (inDim4_apply bcast_S1x1x1x16_S1x1x4096x16_0_1_2_3 _ a u r c (0 : Fin 1) (0 : Fin 1) (0 : Fin 1) c rfl rfl rfl rfl).trans
      (inDim_lane_apply bcast_S16_S1x1x1x16_3 (iotaInDim S16 32 0) 0 0 0 c)
  show FloatOps.uitofp (F := Ideal) .f32 (IntOp.cmpi .eq
      (broadcastInDim S1x1x4096x16 ![0, 1, 2, 3] bcast_S1x1x4096x1_S1x1x4096x16_0_1_2_3 idxS (ix4 a u r c))
      (broadcastInDim S1x1x4096x16 ![0, 1, 2, 3] bcast_S1x1x1x16_S1x1x4096x16_0_1_2_3
        (broadcastInDim S1x1x1x16 ![3] bcast_S16_S1x1x1x16_3 (iotaInDim S16 32 0)) (ix4 a u r c))) = _
  rw [hX, hY]
  exact hot_word _ _ (by have := r.isLt; omega) (by have := c.isLt; omega)

/-- A sum against a one-hot row picks one term. -/
theorem sum_hot {n : ℕ} (c0 : Fin n) (e f : Fin n → EReal) (he : ∀ c, e c = if c.val = c0.val then 1 else 0) :
    ∑ c, e c * f c = f c0 := by
  rw [Finset.sum_eq_single c0]
  · rw [he c0, if_pos rfl, one_mul]
  · intro c _ hc
    rw [he c, if_neg (fun h => hc (Fin.ext h)), zero_mul]
  · intro h; exact absurd (Finset.mem_univ _) h

/-- The position row of token r at lane k: the token's temporal row plus its spectral row. -/
theorem pos_apply (T : FVec Ideal S256x1024 .f32) (S : FVec Ideal S16x1024 .f32) (a u : Fin 1) (r : Fin 4096) (k : Fin 1024) :
    pos T S (ix4 a u r k) = Cert.PosNorm.tRow T r k + Cert.PosNorm.sRow S r k := by
  have hT : Host.dotGeneral dot_S1x1x4096x256_S256x1024_S1x1x4096x1024_3_0_012_1_n_n none (hotT (F := Ideal)) T (ix4 a u r k)
      = Cert.PosNorm.tRow T r k :=
    (dot_rows_apply dot_S1x1x4096x256_S256x1024_S1x1x4096x1024_3_0_012_1_n_n_wf none (hotT (F := Ideal)) T a u r k).trans
      (sum_hot (⟨r.val / 16, by omega⟩ : Fin 256) _ (fun c => T (ix2 c k)) (fun c => hotT_apply a u r c))
  have hS : Host.dotGeneral dot_S1x1x4096x16_S16x1024_S1x1x4096x1024_3_0_012_1_n_n none (hotS (F := Ideal)) S (ix4 a u r k)
      = Cert.PosNorm.sRow S r k :=
    (dot_rows_apply dot_S1x1x4096x16_S16x1024_S1x1x4096x1024_3_0_012_1_n_n_wf none (hotS (F := Ideal)) S a u r k).trans
      (sum_hot (⟨r.val % 16, by omega⟩ : Fin 16) _ (fun c => S (ix2 c k)) (fun c => hotS_apply a u r c))
  show Host.dotGeneral dot_S1x1x4096x256_S256x1024_S1x1x4096x1024_3_0_012_1_n_n none (hotT (F := Ideal)) T (ix4 a u r k)
      + Host.dotGeneral dot_S1x1x4096x16_S16x1024_S1x1x4096x1024_3_0_012_1_n_n none (hotS (F := Ideal)) S (ix4 a u r k) = _
  rw [hT, hS]

end Cert.ReferenceIdeal.RefValue

end
-- ==== Proof.RefNorm.lean ====
/-
  The layer norm of the reference, read at an index, at the ideal values.

  A lane sum from the zero word is the sum of the row; the mean divides it by the word 1024.  The variance divides the
  sum of the squared deviations by the count `1024 - 0`, which is the word 1024 again; that count is positive, so the
  guarded select takes the variance.  The normalised row is the deviation times the reciprocal square root of the
  variance plus epsilon, scaled and shifted lane by lane.
-/
import Mathlib.Tactic
import Idealize.ShloMosaic.Lib.IdealHost
import proofs.«100163_g22428319220377_cont_9to1_50_21_alg».proof.Proof.Spec
import proofs.«100163_g22428319220377_cont_9to1_50_21_alg».proof.Proof.RefStages
import proofs.«100163_g22428319220377_cont_9to1_50_21_alg».proof.Proof.RefLayout

noncomputable section

namespace Cert.ReferenceIdeal.RefValue

open Cert.ReferenceIdeal Cert.ReferenceIdeal.Gen Idealize.ShloMosaic Idealize.ShloMosaic.ValueIdx

/-- The word `0x44800000` denotes 1024: exponent field 137, significand 0. -/
theorem word_1024 : Ideal.ofBits .f32 0x44800000#32 = ((1024 : ℝ) : EReal) := by
  simp [Ideal.ofBits, Ideal.ieee, -EReal.coe_mul] <;> norm_num

/-! ## Layout -/

/-- A scalar as a column reads the scalar. -/
theorem column_apply {α : Type} (v : S_.Idx → α) (i : S1x1x4096x1.Idx) : column v i = v ix0 :=
  broadcastInDim_scalar_apply bcast_S_S1x1x4096x1 v i

/-- A column spread over the lanes reads, at (a, u, r, k), the column at r. -/
theorem spread_apply {α : Type} (v : S1x1x4096x1.Idx → α) (a u : Fin 1) (r : Fin 4096) (k : Fin 1024) :
    spread v (ix4 a u r k) = v (ix4 (0 : Fin 1) (0 : Fin 1) r (0 : Fin 1)) :=
  inDim4_apply bcast_S1x1x4096x1_S1x1x4096x1024_0_1_2_3 v a u r k 0 0 r 0 rfl rfl rfl rfl

/-- A lane vector spread over the rows reads, at (a, u, r, k), the vector at k. -/
theorem lanes_apply {α : Type} (v : S1024.Idx → α) (a u : Fin 1) (r : Fin 4096) (k : Fin 1024) :
    lanes v (ix4 a u r k) = v (ix1 k) :=
  (inDim4_apply bcast_S1x1x1x1024_S1x1x4096x1024_0_1_2_3 _ a u r k 0 0 0 k rfl rfl rfl rfl).trans
    (inDim_lane_apply bcast_S1024_S1x1x1x1024_3 v 0 0 0 k)

/-! ## The lane sum -/

theorem reduces_lanes : S1x1x4096x1024.Reduces [3] S1x1x4096 := by decide

/-- Over row (a, u, r), the index with lane k inserted is (a, u, r, k). -/
theorem lift_lane (h : S1x1x4096x1024.Reduces [3] S1x1x4096) (a u : Fin 1) (r : Fin 4096) (k : Fin 1024) :
    h.lift (ix3 a u r) k = ix4 a u r k :=
  funext fun c => Fin.ext (by match c with | ⟨0, _⟩ => rfl | ⟨1, _⟩ => rfl | ⟨2, _⟩ => rfl | ⟨3, _⟩ => rfl)

/-- The column of lane sums at row r: the sum of the row. -/
theorem sumCol_apply (p : FVec Ideal S1x1x4096x1024 .f32) (a u : Fin 1) (r : Fin 4096) (w : Fin 1) :
    sumCol p (ix4 a u r w) = ∑ k : Fin 1024, p (ix4 a u r k) := by
  refine (inDim_keep_apply bcast_S1x1x4096_S1x1x4096x1_0_1_2 _ a u r w).trans ?_
  refine (hostReduceAdd_apply p _ reducesTo_S1x1x4096x1024_S1x1x4096_d3 h_S_ (ix3 a u r)).trans ?_
  refine (Ideal.hostReduceAdd_single reducesTo_S1x1x4096x1024_S1x1x4096_d3 reduces_lanes p _ (ix3 a u r)).trans ?_
  rw [show (constant (F := Ideal) S_ .f32 0x00000000#32) (Shape.Idx.first h_S_) = Ideal.ofBits .f32 0x00000000#32 from rfl,
    Ideal.ofBits_zero_f32, zero_add]
  exact Finset.sum_congr rfl fun k _ => congrArg p (lift_lane reduces_lanes a u r k)

/-! ## Mean and variance -/

/-- The mean of row r: the row's sum over the word 1024. -/
theorem meanCol_apply (p : FVec Ideal S1x1x4096x1024 .f32) (a u : Fin 1) (r : Fin 4096) (w : Fin 1) :
    meanCol p (ix4 a u r w) = Ideal.div (∑ k : Fin 1024, p (ix4 a u r k)) Cert.PosNorm.wN := by
  show Ideal.div (sumCol p (ix4 a u r w)) (column (constant (F := Ideal) S_ .f32 0x44800000#32) (ix4 a u r w)) = _
  rw [sumCol_apply, column_apply]
  rfl

/-- The count is the word 1024: the converted integer zero is zero. -/
theorem count_apply (i : S_.Idx) : count (F := Ideal) i = Cert.PosNorm.wN := by
  show Ideal.ofBits .f32 0x44800000#32 - (((0#32 : BitVec 32).toInt : ℝ) : EReal) = _
  simp

/-- The count is positive, so the guard holds. -/
theorem guard_apply (i : S_.Idx) : cmpf .ogt (count (F := Ideal)) (constant (F := Ideal) S_ .f32 0x00000000#32) i = 1#1 := by
  show Ideal.cmp .ogt (count (F := Ideal) i) (Ideal.ofBits .f32 0x00000000#32) = 1#1
  rw [count_apply, Ideal.ofBits_zero_f32]
  show BitVec.ofBool (decide ((0 : EReal) < Cert.PosNorm.wN)) = 1#1
  have h0 : (0 : EReal) < Cert.PosNorm.wN := by
    rw [show Cert.PosNorm.wN = ((1024 : ℝ) : EReal) from word_1024]
    exact_mod_cast (by norm_num : (0 : ℝ) < 1024)
  simp [h0]

/-- The deviation at (r, k): the row's entry less the row's mean. -/
theorem dev_apply (p : FVec Ideal S1x1x4096x1024 .f32) (a u : Fin 1) (r : Fin 4096) (k : Fin 1024) :
    dev p (ix4 a u r k) = p (ix4 a u r k) - meanCol p (ix4 (0 : Fin 1) (0 : Fin 1) r (0 : Fin 1)) := by
  show p (ix4 a u r k) - spread (meanCol p) (ix4 a u r k) = _
  rw [spread_apply]

/-- The variance of row r: the sum of the squared deviations over the word 1024. -/
theorem varCol_apply (p : FVec Ideal S1x1x4096x1024 .f32) (a u : Fin 1) (r : Fin 4096) (w : Fin 1) :
    varCol p (ix4 a u r w) = Ideal.div (∑ k : Fin 1024, dev p (ix4 a u r k) * dev p (ix4 a u r k)) Cert.PosNorm.wN := by
  show Scalar.select (column (cmpf .ogt (count (F := Ideal)) (constant (F := Ideal) S_ .f32 0x00000000#32)) (ix4 a u r w))
      (Ideal.div (sumCol (mulf (dev p) (dev p)) (ix4 a u r w)) (column (count (F := Ideal)) (ix4 a u r w)))
      (column (constant (F := Ideal) S_ .f32 0x7FC00000#32) (ix4 a u r w)) = _
  rw [column_apply, guard_apply, select_one, sumCol_apply, column_apply, count_apply]
  rfl

/-! ## The normalised row -/

section Row

variable (p : FVec Ideal S1x1x4096x1024 .f32) (r : Fin 4096) (row : Fin 1024 → EReal)
  (hp : ∀ k, p (ix4 (0 : Fin 1) (0 : Fin 1) r k) = row k)
include hp

theorem meanCol_row : meanCol p (ix4 (0 : Fin 1) (0 : Fin 1) r (0 : Fin 1)) = Cert.PosNorm.refMean row :=
  (meanCol_apply p 0 0 r 0).trans
    (congrArg (fun s => Ideal.div s Cert.PosNorm.wN) (Finset.sum_congr rfl fun k _ => hp k))

theorem dev_row (k : Fin 1024) : dev p (ix4 (0 : Fin 1) (0 : Fin 1) r k) = row k - Cert.PosNorm.refMean row := by
  rw [dev_apply, meanCol_row p r row hp, hp k]

theorem varCol_row : varCol p (ix4 (0 : Fin 1) (0 : Fin 1) r (0 : Fin 1)) = Cert.PosNorm.refVar row :=
  (varCol_apply p 0 0 r 0).trans
    (congrArg (fun s => Ideal.div s Cert.PosNorm.wN)
      (Finset.sum_congr rfl fun k _ => by rw [dev_row p r row hp k]))

/-- The normalised, scaled and shifted row at lane h. -/
theorem normed_apply (g b : FVec Ideal S1024 .f32) (h : Fin 1024) :
    normed p g b (ix4 (0 : Fin 1) (0 : Fin 1) r h) = Cert.PosNorm.refRow row h * g (ix1 h) + b (ix1 h) := by
  show (p (ix4 (0 : Fin 1) (0 : Fin 1) r h) - spread (meanCol p) (ix4 (0 : Fin 1) (0 : Fin 1) r h))
        * spread (Host.rsqrt (addf (varCol p) (column (constant (F := Ideal) S_ .f32 0x358637BD#32)))) (ix4 (0 : Fin 1) (0 : Fin 1) r h)
        * lanes g (ix4 (0 : Fin 1) (0 : Fin 1) r h) + lanes b (ix4 (0 : Fin 1) (0 : Fin 1) r h) = _
  rw [spread_apply, spread_apply, lanes_apply, lanes_apply, meanCol_row p r row hp, hp h]
  show (row h - Cert.PosNorm.refMean row)
        * Ideal.rsqrt (varCol p (ix4 (0 : Fin 1) (0 : Fin 1) r (0 : Fin 1))
            + column (constant (F := Ideal) S_ .f32 0x358637BD#32) (ix4 (0 : Fin 1) (0 : Fin 1) r (0 : Fin 1)))
        * g (ix1 h) + b (ix1 h) = _
  rw [varCol_row p r row hp, column_apply]
  rfl

end Row

end Cert.ReferenceIdeal.RefValue

end
-- ==== Proof.RefValue.lean ====
/-
  The reference's run and value: from any memory with zero counters every weakly fair execution of the reference's @main
  terminates with its result buffer at the specification `Cert.PosNorm.G` of the five arguments' launch contents, and the
  arguments unchanged.  The run gives the pure function `refOut`; read at an index (a, u, r, h), `refOut` is the input
  plus the normalised position row of token r at lane h, which is `G` there.
-/
import proofs.«100163_g22428319220377_cont_9to1_50_21_alg».proof.Proof.Spec
import proofs.«100163_g22428319220377_cont_9to1_50_21_alg».proof.Proof.RefOut
import proofs.«100163_g22428319220377_cont_9to1_50_21_alg».proof.Proof.RefRows
import proofs.«100163_g22428319220377_cont_9to1_50_21_alg».proof.Proof.RefNorm

noncomputable section

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

/-- At the ideal values the reference's result is the specification. -/
theorem refOut_eq_G (x : FVec Ideal S4x1x4096x1024 .f32) (T : FVec Ideal S256x1024 .f32) (S : FVec Ideal S16x1024 .f32)
    (g b : FVec Ideal S1024 .f32) : refOut x T S g b = Cert.PosNorm.G x T S g b := by
  funext i
  obtain ⟨a, u, r, h, rfl⟩ : ∃ (a : Fin 4) (u : Fin 1) (r : Fin 4096) (h : Fin 1024), i = ix4 a u r h :=
    ⟨i 0, i 1, i 2, i 3, eq_ix4 i⟩
  rw [Cert.PosNorm.G_apply]
  show x (ix4 a u r h)
      + broadcastInDim S4x1x4096x1024 ![0, 1, 2, 3] bcast_S1x1x4096x1024_S4x1x4096x1024_0_1_2_3 (normed (pos T S) g b) (ix4 a u r h) = _
  rw [inDim4_apply bcast_S1x1x4096x1024_S4x1x4096x1024_0_1_2_3 (normed (pos T S) g b) a u r h (0 : Fin 1) (0 : Fin 1) r h
      rfl rfl rfl rfl,
    normed_apply (pos T S) r (fun k => Cert.PosNorm.tRow T r k + Cert.PosNorm.sRow S r k) (fun k => pos_apply T S 0 0 r k) g b h]

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v40)
          = Cert.PosNorm.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (refOut_eq_G _ _ _ _ _), (h c).2⟩) (run_refOut (F := Ideal) m ρ)

end Cert.ReferenceIdeal.RefValue

end
-- ==== Proof.lean ====
/-
  The certificate of the spectro-temporal position encoding: the kernel adds to each token of the input the layer norm of
  "temporal row r / 16 plus spectral row r % 16" times the scale plus the bias, and so does the reference.

  The kernel computes the normalised row in a separated form (the sums of t, s, t², s² and the inner product t·s give
  the mean and the second moment) over [4, 256, 16, 1024] views; the reference looks the two rows up by one-hot
  products and normalises the sum in the textbook way.  Over the reals the two agree: Σ(p − μ)²/n = Σp²/n − μ² with
  Σp² = Σt² + Σs² + 2Σts, and (p·r − μ·r) = (p − μ)·r.  The tables are finite by the precondition, so every quantity
  derived from them is a real number and the rsqrt argument is positive; the input, the scale and the bias may be any
  extended reals.  The three frames: the two kernel programs' are the generated frame certificates, the reference's is its
  run with the result dropped.  The ideal pass rewrote nothing, so `preserves` is trivial.
-/
import proofs.«100163_g22428319220377_cont_9to1_50_21_alg».proof.Defs
import proofs.«100163_g22428319220377_cont_9to1_50_21_alg».proof.Proof.Gen.Kernel
import proofs.«100163_g22428319220377_cont_9to1_50_21_alg».proof.Proof.Gen.Kernel.Frame
import proofs.«100163_g22428319220377_cont_9to1_50_21_alg».proof.Proof.Gen.KernelIdeal
import proofs.«100163_g22428319220377_cont_9to1_50_21_alg».proof.Proof.Gen.KernelIdeal.Frame
import proofs.«100163_g22428319220377_cont_9to1_50_21_alg».proof.Proof.Gen.ReferenceIdeal
import proofs.«100163_g22428319220377_cont_9to1_50_21_alg».proof.Proof.Gen.Pre_finite_inputs
import proofs.«100163_g22428319220377_cont_9to1_50_21_alg».proof.Proof.KerRun
import proofs.«100163_g22428319220377_cont_9to1_50_21_alg».proof.Proof.Core
import proofs.«100163_g22428319220377_cont_9to1_50_21_alg».proof.Proof.Finite
import proofs.«100163_g22428319220377_cont_9to1_50_21_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both runs end at the textbook form of the specification on the (agreeing) launch arrays: the reference's by its run
    read index by index, the kernel's by its separated form, which is the textbook form because the two tables hold real
    numbers. -/
theorem algebraic : Cert.algebraic_KernelIdeal_ReferenceIdeal := by
  intro m ρ m' ρ' hpre hagree
  refine ⟨fun c => Cert.PosNorm.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)), ?_, ?_⟩
  · refine (θ_run Cert.KernelIdeal.defs _ _).mono (fun _ h c => ⟨(h c).1.trans ?_, (h c).2⟩)
      (Cert.KernelIdeal.KerValue.run m ρ)
    obtain ⟨hT, hS⟩ := Cert.PosNorm.tables_real _ _ _ _ _ (hpre c)
    exact Cert.PosNorm.Gk_eq_G _ _ _ _ _ hT hS
  · refine (θ_run Cert.ReferenceIdeal.defs _ _).mono (fun _ h c => ⟨(h c).1.trans ?_, (h c).2⟩)
      (Cert.ReferenceIdeal.RefValue.run m' ρ')
    rw [(hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
